-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x240x320 : Shape := ⟨3, ![4, 240, 320]⟩
abbrev S4x256 : Shape := ⟨2, ![4, 256]⟩
abbrev S_ : Shape := ⟨0, ![]⟩

class Facts : Prop where
  bcast_S_S4x240x320 : S_.BroadcastsInDim S4x240x320 (![] : Fin 0 → Fin S4x240x320.rank)
  reducesTo_S4x240x320_S_d0_1_2 : S4x240x320.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S4x240x320 .f32) (main_arg1 : FVec F S4x256 .f32) (main_arg2 : IVec S4x240x320 1) : IVec S_ 1 :=
  let main_v0 : FVec F S4x240x320 .f32 := Host.absf main_arg0
  let main_cst : FVec F S_ .f32 := constant S_ .f32 0x7F800000#32
  let main_v1 : FVec F S4x240x320 .f32 := broadcastInDim S4x240x320 ![] bcast_S_S4x240x320 main_cst
  let main_v2 : IVec S4x240x320 1 := cmpf .olt main_v0 main_v1
  let main_c : IVec S_ 1 := constantI S_ 1 1#1
  let main_v3 : IVec S_ 1 := (fun x v => Host.reduce IntOp.andi x v reducesTo_S4x240x320_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Kernel.lean ====
abbrev S4x240x320 : Shape := ⟨3, ![4, 240, 320]⟩
abbrev S4x256 : Shape := ⟨2, ![4, 256]⟩
abbrev S4x76800 : Shape := ⟨2, ![4, 76800]⟩
abbrev S1x1 : Shape := ⟨2, ![1, 1]⟩
abbrev S4 : Shape := ⟨1, ![4]⟩
abbrev S4x1 : Shape := ⟨2, ![4, 1]⟩
abbrev S1 : Shape := ⟨1, ![1]⟩
abbrev S4x257 : Shape := ⟨2, ![4, 257]⟩
abbrev S4x1536 : Shape := ⟨2, ![4, 1536]⟩
abbrev S4x257x1 : Shape := ⟨3, ![4, 257, 1]⟩
abbrev S4x1x1536 : Shape := ⟨3, ![4, 1, 1536]⟩
abbrev S4x257x1536 : Shape := ⟨3, ![4, 257, 1536]⟩
abbrev S_ : Shape := ⟨0, ![]⟩

abbrev nBuf : Space → Nat
  | .hbm => 14
  | .vmem => 13
  | .smem => 0
  | _ => 0

abbrev bufTy : (tb : Table) → Fin (tcTables nBuf tb) → BufTy
  | .hbm, ⟨0, _⟩ => ⟨S4x240x320, .f32⟩
  | .hbm, ⟨1, _⟩ => ⟨S4x256, .f32⟩
  | .hbm, ⟨2, _⟩ => ⟨S4x240x320, .i1⟩
  | .hbm, ⟨3, _⟩ => ⟨S4x76800, .f32⟩
  | .hbm, ⟨4, _⟩ => ⟨S4x240x320, .f32⟩
  | .hbm, ⟨5, _⟩ => ⟨S4x76800, .f32⟩
  | .hbm, ⟨6, _⟩ => ⟨S1x1, .f32⟩
  | .hbm, ⟨7, _⟩ => ⟨S4x1, .f32⟩
  | .hbm, ⟨8, _⟩ => ⟨S4x257, .f32⟩
  | .hbm, ⟨9, _⟩ => ⟨S4x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S4x76800, .f32⟩
  | .local _ .vmem, ⟨1, _⟩ => ⟨S4x76800, .f32⟩
  | .local _ .vmem, ⟨2, _⟩ => ⟨S4x256, .f32⟩
  | .local _ .vmem, ⟨3, _⟩ => ⟨S1x1, .f32⟩
  | .local _ .vmem, ⟨4, _⟩ => ⟨S4x257, .f32⟩
  | .local _ .vmem, ⟨5, _⟩ => ⟨S4x1536, .f32⟩
  | .local _ .vmem, ⟨6, _⟩ => ⟨S4x1536, .f32⟩
  | .local _ .vmem, ⟨7, _⟩ => ⟨S4x1536, .f32⟩
  | .local _ .vmem, ⟨8, _⟩ => ⟨S4x1536, .f32⟩
  | .local _ .vmem, ⟨9, _⟩ => ⟨S1x1, .f32⟩
  | .local _ .vmem, ⟨10, _⟩ => ⟨S4x1, .f32⟩
  | .local _ .vmem, ⟨11, _⟩ => ⟨S4x257, .f32⟩
  | .local _ .vmem, ⟨12, _⟩ => ⟨S4x1, .f32⟩
  | _, _ => ⟨S4x240x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x76800 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x76800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v35 : BitVec 1 := Scalar.cmpi .eq arg0 c49_i32
  let v36 : BitVec 32 := Scalar.extui v35
  let c0_i32_19 : BitVec 32 := 0#32
  let v37 : BitVec 1 := Scalar.cmpi .ne v36 c0_i32_19
  v37

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4x257 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S4x240x320_S4x76800 : S4x240x320.ShapeCasts S4x76800
  inb_S4x76800_S4x76800_0_0 : ∀ a, (![0, 0] : Fin 2 → Nat) a + S4x76800.size a ≤ S4x76800.size a
  h_S4x76800 : 0 < S4x76800.numel
  shapeCasts_S4x76800_S4x76800 : S4x76800.ShapeCasts S4x76800
  reduces_S4x76800_S4 : S4x76800.Reduces [1] S4
  shapeCasts_S4_S4x1 : S4.ShapeCasts S4x1
  reduces_S4x1_S1 : S4x1.Reduces [0] S1
  shapeCasts_S1_S1x1 : S1.ShapeCasts S1x1
  inb_S4x256_S4x256_0_0 : ∀ a, (![0, 0] : Fin 2 → Nat) a + S4x256.size a ≤ S4x256.size a
  h_S4x256 : 0 < S4x256.numel
  reduces_S4x256_S4 : S4x256.Reduces [1] S4
  inb_S1x1_S1x1_0_0 : ∀ a, (![0, 0] : Fin 2 → Nat) a + S1x1.size a ≤ S1x1.size a
  h_S1x1 : 0 < S1x1.numel
  bcast_S1x1_S4x1_0_1 : S1x1.BroadcastsInDim S4x1 (![0, 1] : Fin 2 → Fin S4x1.rank)
  concatenates_S4x256_S4x1_S4x257_d1 : Shape.Concatenates [S4x256, S4x1] S4x257 1
  inb_S4x257_S4x257_0_0 : ∀ a, (![0, 0] : Fin 2 → Nat) a + S4x257.size a ≤ S4x257.size a
  h_S4x257 : 0 < S4x257.numel
  shapeCasts_S4x257_S4x257 : S4x257.ShapeCasts S4x257
  inb_S4x1_S4x1_0_0 : ∀ a, (![0, 0] : Fin 2 → Nat) a + S4x1.size a ≤ S4x1.size a
  h_S4x1 : 0 < S4x1.numel
  shapeCasts_S4x1_S4x1 : S4x1.ShapeCasts S4x1
  inpos_S1x1_p0_0 : ∀ a, (![0, 0] : Fin 2 → Nat) a < S1x1.size a
  inb_S4x1536_S4x1536_0_0 : ∀ a, (![0, 0] : Fin 2 → Nat) a + S4x1536.size a ≤ S4x1536.size a
  h_S4x1536 : 0 < S4x1536.numel
  shapeCasts_S4x1536_S4x1536 : S4x1536.ShapeCasts S4x1536
  shapeCasts_S4x257_S4x257x1 : S4x257.ShapeCasts S4x257x1
  shapeCasts_S4x1536_S4x1x1536 : S4x1536.ShapeCasts S4x1x1536
  broadcasts_S4x257x1_S4x257x1536 : S4x257x1.Broadcasts S4x257x1536
  broadcasts_S4x1x1536_S4x257x1536 : S4x1x1536.Broadcasts S4x257x1536
  reduces_S4x257x1536_S4x257 : S4x257x1536.Reduces [2] S4x257
  reduces_S4x257x1536_S4x1536 : S4x257x1536.Reduces [1] S4x1536
  reduces_S4x1536_S4 : S4x1536.Reduces [1] S4
  reduces_S4x257_S4 : S4x257.Reduces [1] S4
  reducesTo_S4x1_S_d0_1 : S4x1.ReducesTo [0, 1] S_
  h_S_ : 0 < S_.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x76800.size a ≤ S4x76800.size a
  hwx0_0 : ∀ i : grid0.Coords, EltTy.bits .f32 = 32 ∨ (Rect.block (s := S4x76800) S4x76800.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x76800.size a ≤ S4x76800.size a
  hwx0_1 : ∀ i : grid0.Coords, EltTy.bits .f32 = 32 ∨ (Rect.block (s := S4x76800) S4x76800.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x256.size a
  hwx0_2 : ∀ i : grid0.Coords, EltTy.bits .f32 = 32 ∨ (Rect.block (s := S4x256) S4x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x257.size a ≤ S4x257.size a
  hwx1_0 : ∀ i : grid1.Coords, EltTy.bits .f32 = 32 ∨ (Rect.block (s := S4x257) S4x257.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x1536.size a ≤ S4x76800.size a
  hwx1_1 : ∀ i : grid1.Coords, EltTy.bits .f32 = 32 ∨ (Rect.block (s := S4x76800) S4x1536.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x1536.size a ≤ S4x76800.size a
  hwx1_2 : ∀ i : grid1.Coords, EltTy.bits .f32 = 32 ∨ (Rect.block (s := S4x76800) S4x1536.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x1.size a ≤ S4x1.size a
  hwx1_4 : ∀ i : grid1.Coords, EltTy.bits .f32 = 32 ∨ (Rect.block (s := S4x1) S4x1.size (cc1_transform_4 i) (hinb1_4 i)).WholeWords (EltTy.packing .f32)

variable [Facts₀]

abbrev win0_0 : Pipeline.Window sig grid0 :=
  Pipeline.Window.ofSpec (Memref.whole main_v0) S4x76800.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x76800.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S4x257.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4x1536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4x1536.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S4x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x240x320 : Shape := ⟨3, ![4, 240, 320]⟩
abbrev S4x256 : Shape := ⟨2, ![4, 256]⟩
abbrev S_ : Shape := ⟨0, ![]⟩
abbrev S4x1 : Shape := ⟨2, ![4, 1]⟩
abbrev S4x257 : Shape := ⟨2, ![4, 257]⟩
abbrev S4x76800 : Shape := ⟨2, ![4, 76800]⟩
abbrev S4x257x1 : Shape := ⟨3, ![4, 257, 1]⟩
abbrev S4x1x76800 : Shape := ⟨3, ![4, 1, 76800]⟩
abbrev S4x257x76800 : Shape := ⟨3, ![4, 257, 76800]⟩
abbrev S4 : Shape := ⟨1, ![4]⟩
abbrev S4x76800x1 : Shape := ⟨3, ![4, 76800, 1]⟩
abbrev S4x1x257 : Shape := ⟨3, ![4, 1, 257]⟩
abbrev S4x76800x257 : Shape := ⟨3, ![4, 76800, 257]⟩

abbrev nBuf : Space → Nat
  | .hbm => 47
  | .vmem => 0
  | .smem => 0
  | _ => 0

abbrev bufTy : (tb : Table) → Fin (tcTables nBuf tb) → BufTy
  | .hbm, ⟨0, _⟩ => ⟨S4x240x320, .f32⟩
  | .hbm, ⟨1, _⟩ => ⟨S4x256, .f32⟩
  | .hbm, ⟨2, _⟩ => ⟨S4x240x320, .i1⟩
  | .hbm, ⟨3, _⟩ => ⟨S_, .f32⟩
  | .hbm, ⟨4, _⟩ => ⟨S_, .f32⟩
  | .hbm, ⟨5, _⟩ => ⟨S4x240x320, .f32⟩
  | .hbm, ⟨6, _⟩ => ⟨S4x240x320, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x1, .f32⟩
  | .hbm, ⟨18, _⟩ => ⟨S4x257, .f32⟩
  | .hbm, ⟨19, _⟩ => ⟨S4x240x320, .f32⟩
  | .hbm, ⟨20, _⟩ => ⟨S4x240x320, .f32⟩
  | .hbm, ⟨21, _⟩ => ⟨S4x76800, .f32⟩
  | .hbm, ⟨22, _⟩ => ⟨S4x257x1, .f32⟩
  | .hbm, ⟨23, _⟩ => ⟨S4x1x76800, .f32⟩
  | .hbm, ⟨24, _⟩ => ⟨S4x257x76800, .f32⟩
  | .hbm, ⟨25, _⟩ => ⟨S4x257x76800, .f32⟩
  | .hbm, ⟨26, _⟩ => ⟨S4x257x76800, .f32⟩
  | .hbm, ⟨27, _⟩ => ⟨S4x257x76800, .f32⟩
  | .hbm, ⟨28, _⟩ => ⟨S_, .f32⟩
  | .hbm, ⟨29, _⟩ => ⟨S4x257, .f32⟩
  | .hbm, ⟨30, _⟩ => ⟨S_, .f32⟩
  | .hbm, ⟨31, _⟩ => ⟨S4, .f32⟩
  | .hbm, ⟨32, _⟩ => ⟨S4x76800x1, .f32⟩
  | .hbm, ⟨33, _⟩ => ⟨S4x1x257, .f32⟩
  | .hbm, ⟨34, _⟩ => ⟨S4x76800x257, .f32⟩
  | .hbm, ⟨35, _⟩ => ⟨S4x76800x257, .f32⟩
  | .hbm, ⟨36, _⟩ => ⟨S4x76800x257, .f32⟩
  | .hbm, ⟨37, _⟩ => ⟨S4x76800x257, .f32⟩
  | .hbm, ⟨38, _⟩ => ⟨S_, .f32⟩
  | .hbm, ⟨39, _⟩ => ⟨S4x76800, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4x240x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  bcast_S_S4x240x320 : S_.BroadcastsInDim S4x240x320 (![] : Fin 0 → Fin S4x240x320.rank)
  reducesTo_S4x240x320_S_d0_1_2 : S4x240x320.ReducesTo [0, 1, 2] S_
  h_S_ : 0 < S_.numel
  reducesTo_S4x256_S_d0_1 : S4x256.ReducesTo [0, 1] S_
  bcast_S_S4x1 : S_.BroadcastsInDim S4x1 (![] : Fin 0 → Fin S4x1.rank)
  concatenates_S4x256_S4x1_S4x257_d1 : Shape.Concatenates [S4x256, S4x1] S4x257 1
  shapeCasts_S4x240x320_S4x76800 : S4x240x320.ShapeCasts S4x76800
  bcast_S4x257_S4x257x1_0_1 : S4x257.BroadcastsInDim S4x257x1 (![0, 1] : Fin 2 → Fin S4x257x1.rank)
  bcast_S4x76800_S4x1x76800_0_2 : S4x76800.BroadcastsInDim S4x1x76800 (![0, 2] : Fin 2 → Fin S4x1x76800.rank)
  bcast_S4x257x1_S4x257x76800_0_1_2 : S4x257x1.BroadcastsInDim S4x257x76800 (![0, 1, 2] : Fin 3 → Fin S4x257x76800.rank)
  bcast_S4x1x76800_S4x257x76800_0_1_2 : S4x1x76800.BroadcastsInDim S4x257x76800 (![0, 1, 2] : Fin 3 → Fin S4x257x76800.rank)
  reducesTo_S4x257x76800_S4x257_d2 : S4x257x76800.ReducesTo [2] S4x257
  reducesTo_S4x257_S4_d1 : S4x257.ReducesTo [1] S4
  bcast_S4x76800_S4x76800x1_0_1 : S4x76800.BroadcastsInDim S4x76800x1 (![0, 1] : Fin 2 → Fin S4x76800x1.rank)
  bcast_S4x257_S4x1x257_0_2 : S4x257.BroadcastsInDim S4x1x257 (![0, 2] : Fin 2 → Fin S4x1x257.rank)
  bcast_S4x76800x1_S4x76800x257_0_1_2 : S4x76800x1.BroadcastsInDim S4x76800x257 (![0, 1, 2] : Fin 3 → Fin S4x76800x257.rank)
  bcast_S4x1x257_S4x76800x257_0_1_2 : S4x1x257.BroadcastsInDim S4x76800x257 (![0, 1, 2] : Fin 3 → Fin S4x76800x257.rank)
  reducesTo_S4x76800x257_S4x76800_d2 : S4x76800x257.ReducesTo [2] S4x76800
  reducesTo_S4x76800_S4_d1 : S4x76800.ReducesTo [1] S4
  reducesTo_S4_S_d0 : S4.ReducesTo [0] S_

variable [Facts₀]

class Facts : Prop extends Facts₀ where

variable [Facts]
-- ==== Proof.KBRegion0.lean ====
/-
  The first kernel region (the padding value): one grid point; three input windows — the flattened target, the
  flattened mask as floats, the centers — each a single whole-array block, and one output window, the 1×1 padding
  value. The body loads the three inputs, and stores into the output's buffer one value computed from them; so after
  the body the output's buffer holds that value of the three input blocks, whatever it held before, and the inputs'
  buffers are as they were. Stated at any contents `V` of the core's buffers when the region is entered.
-/
import proofs.«149737_j80418967650489_1_alg».proof.Proof.Gen.Kernel.Launch
import proofs.«149737_j80418967650489_1_alg».proof.Proof.Gen.Kernel.Skeleton
import proofs.«149737_j80418967650489_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_a : Rect S4x76800 := Rect.unit (s := S4x76800) ![0, 0] S4x76800.size inb_S4x76800_S4x76800_0_0
abbrev r0_c : Rect S4x256 := Rect.unit (s := S4x256) ![0, 0] S4x256.size inb_S4x256_S4x256_0_0
abbrev r0_o : Rect S1x1 := Rect.unit (s := S1x1) ![0, 0] S1x1.size inb_S1x1_S1x1_0_0

/-! ## What the body leaves in the output window's buffer -/

/-- The output's buffer after the body: its one store, of the padding value computed from the three input blocks. -/
def out0_3 (x0 : Vec F S4x76800 .f32) (x1 : Vec F S4x76800 .f32) (x2 : Vec F S4x256 .f32) : Vec F S1x1 .f32 :=
  View.canon [⟨r0_o, k0_pay1 (View.ld x0 r0_a) (View.ld x1 r0_a) (View.ld x2 r0_c)⟩]

/-- The one store covers the 1×1 buffer. -/
theorem cover0_3 (p0 : Vec F S1x1 .f32) (y : S1x1.Idx) :
    ∃ pc ∈ ([⟨r0_o, p0⟩] : List (View.Piece (Elt F) S1x1 .f32)), y ∈ pc.1.set :=
  View.cover_of_tiled [⟨r0_o, p0⟩] S1x1.size (by rfl) y

/-! ## The body's triple -/

set_option maxHeartbeats 1000000 in
/-- The body on whole buffers, the inputs' at contents `x0 x1 x2` and the output's at anything, runs to the
    continuation with the inputs' as they were and the output's at `out0_3` of them. -/
theorem sound_kernel0 (c : Dev nD) (E : Set ℕ) (i : grid0.Coords)
    (arg1 : Memref sig .tc .vmem S4x76800 .f32) (harg1 : arg1.IsWhole) (arg2 : Memref sig .tc .vmem S4x76800 .f32) (harg2 : arg2.IsWhole)
    (arg3 : Memref sig .tc .vmem S4x256 .f32) (harg3 : arg3.IsWhole) (arg4 : Memref sig .tc .vmem S1x1 .f32) (harg4 : arg4.IsWhole)
    (x0 : Vec F S4x76800 .f32) (x1 : Vec F S4x76800 .f32) (x2 : Vec F S4x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__padval_kernel i arg1 harg1 arg2 harg2 arg3 harg3 arg4 harg4) K := by
  simp only [cc0__padval_kernel_eq_skeleton]; unfold cc0__padval_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the first region on core `c`: the arrays as the region finds them; after the body each
    input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBRuns.lean ====
/-
  The second kernel region (the two-sided nearest-squared-distance sums): a grid of 50 points over the flattened
  pixel axis. Four input windows — the padded centers and the 1×1 padding value, whole arrays fetched once; the
  target's and the mask's blocks of 1536 pixels, fetched at every point — one output window, the 4×1 per-batch sums,
  and two scratch buffers the kernel keeps from one point to the next: the running minima [4, 257] and the running
  sums [4, 1]. The body resets both scratch buffers at the first point, updates both at every point, and at the last
  point alone stores the output, from the two scratch buffers. So there are three cases of its two conditionals:
  the first point, the points between, the last point. This module states the conditions in closed form over the
  grid, where the output window is idle, and the body's run in each case, the pieces each buffer ends with found by
  the run itself.
-/
import proofs.«149737_j80418967650489_1_alg».proof.Proof.Gen.Kernel.Launch
import proofs.«149737_j80418967650489_1_alg».proof.Proof.Gen.Kernel.Skeleton
import proofs.«149737_j80418967650489_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the reset, from the grid coordinate: it holds at the first point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)

/-- The condition of the final store: it holds at the last point only. -/
abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point the output window is idle (the body stores nothing into it) -/
theorem idleAt1_4 : ∀ t : Fin cfg1.N, ¬cond1_1 (grid1.coords t) → cfg1.idle 4 (grid1.coords t) = true := by decide +kernel
/-- and its block is not written back; -/
theorem noFlush1_4 : ∀ t : Fin cfg1.N, ¬cond1_1 (grid1.coords t) → (cfg1.win 4).flush t = false := by decide +kernel
/-- at the last point it is live. -/
theorem liveAt1_4 : ∀ t : Fin cfg1.N, cond1_1 (grid1.coords t) → cfg1.idle 4 (grid1.coords t) = false := by decide +kernel

/-! ## The buffers the body is called on -/

/-- One buffer of the output window, through which its contents are stated. -/
abbrev VO1_4 : View sig .tc .vmem S4x1 .f32 := (Memref.whole cc1_stg4_0 : Memref sig .tc .vmem S4x1 .f32).view
/-- Each window's current buffer at point `t`, spelt as the pipeline passes it, and its wholeness. -/
abbrev ms1_0 (t : Fin cfg1.N) : Memref sig .tc .vmem S4x257 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x1536 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x1536 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x1 .f32 := win1_4.stage (cfg1.slots t 4)
abbrev hs1_4 (t : Fin cfg1.N) : (ms1_4 t).IsWhole := hstage1_4 ((cfg1.slots t 4).cast nbuf1_4)
/-- The two scratch buffers: whole buffers of the kernel's own. -/
abbrev scM1_0 : Memref sig .tc .vmem S4x257 .f32 := Memref.whole cc1_scratch0
abbrev scM1_1 : Memref sig .tc .vmem S4x1 .f32 := Memref.whole cc1_scratch1
abbrev VS1_0 : View sig .tc .vmem S4x257 .f32 := scM1_0.view
abbrev VS1_1 : View sig .tc .vmem S4x1 .f32 := scM1_1.view

/-- The class's invariant with the two scratch buffers owned at some contents: the first region's four buffers at
    anything, the two scratch buffers, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The body's run, case by case -/

set_option maxHeartbeats 4000000 in
/-- THE FIRST POINT (the reset taken, the final store not): on whole buffers — the inputs' at their contents, the
    output's, idle here, at contents handed back untouched, both scratch buffers at anything — the body runs to the
    continuation holding the inputs' as they were and each scratch buffer with its pieces written. -/
noncomputable def kernelRun1_A (c : Dev nD) (i : grid1.Coords)
    (arg1 : Memref sig .tc .vmem S4x257 .f32) (harg1 : arg1.IsWhole) (arg2 : Memref sig .tc .vmem S4x1536 .f32) (harg2 : arg2.IsWhole)
    (arg3 : Memref sig .tc .vmem S4x1536 .f32) (harg3 : arg3.IsWhole) (arg4 : Memref sig .tc .vmem S1x1 .f32) (harg4 : arg4.IsWhole)
    (arg5 : Memref sig .tc .vmem S4x1 .f32) (harg5 : arg5.IsWhole) (arg6 : Memref sig .tc .vmem S4x257 .f32) (harg6 : arg6.IsWhole)
    (arg7 : Memref sig .tc .vmem S4x1 .f32) (harg7 : arg7.IsWhole) (hc0 : cond1_0 i) (hc1 : ¬cond1_1 i)
    (x0 : Vec F S4x257 .f32) (x1 : Vec F S4x1536 .f32) (x2 : Vec F S4x1536 .f32) (x3 : Vec F S1x1 .f32) :
    Σ' (LS0 : List (View.Piece (Elt F) S4x257 .f32)), { LS1 : List (View.Piece (Elt F) S4x1 .f32) //
      ∀ (xi4 : Vec F S4x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare xi4
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__chamfer_kernel i arg1 harg1 arg2 harg2 arg3 harg3 arg4 harg4 arg5 harg5 arg6 harg6 arg7 harg7) K } := by
  refine ⟨?_, ?_, fun xi4 E K => ?run⟩
  case run =>
    simp only [cc1__chamfer_kernel_eq_skeleton]; unfold cc1__chamfer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
/-- A POINT BETWEEN (neither conditional taken): the scratch buffers at the contents the point before left, the
    output idle; the body leaves each scratch buffer with its pieces written. -/
noncomputable def kernelRun1_B (c : Dev nD) (i : grid1.Coords)
    (arg1 : Memref sig .tc .vmem S4x257 .f32) (harg1 : arg1.IsWhole) (arg2 : Memref sig .tc .vmem S4x1536 .f32) (harg2 : arg2.IsWhole)
    (arg3 : Memref sig .tc .vmem S4x1536 .f32) (harg3 : arg3.IsWhole) (arg4 : Memref sig .tc .vmem S1x1 .f32) (harg4 : arg4.IsWhole)
    (arg5 : Memref sig .tc .vmem S4x1 .f32) (harg5 : arg5.IsWhole) (arg6 : Memref sig .tc .vmem S4x257 .f32) (harg6 : arg6.IsWhole)
    (arg7 : Memref sig .tc .vmem S4x1 .f32) (harg7 : arg7.IsWhole) (hc0 : ¬cond1_0 i) (hc1 : ¬cond1_1 i)
    (x0 : Vec F S4x257 .f32) (x1 : Vec F S4x1536 .f32) (x2 : Vec F S4x1536 .f32) (x3 : Vec F S1x1 .f32)
    (xs0 : Vec F S4x257 .f32) (xs1 : Vec F S4x1 .f32) :
    Σ' (LS0 : List (View.Piece (Elt F) S4x257 .f32)), { LS1 : List (View.Piece (Elt F) S4x1 .f32) //
      ∀ (xi4 : Vec F S4x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__chamfer_kernel i arg1 harg1 arg2 harg2 arg3 harg3 arg4 harg4 arg5 harg5 arg6 harg6 arg7 harg7) K } := by
  refine ⟨?_, ?_, fun xi4 E K => ?run⟩
  case run =>
    simp only [cc1__chamfer_kernel_eq_skeleton]; unfold cc1__chamfer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
/-- THE LAST POINT (the reset not taken, the final store taken): the scratch buffers at the contents the point before
    left, the output's buffer at anything; the body leaves each scratch buffer and the output's buffer with its pieces
    written. -/
noncomputable def kernelRun1_C (c : Dev nD) (i : grid1.Coords)
    (arg1 : Memref sig .tc .vmem S4x257 .f32) (harg1 : arg1.IsWhole) (arg2 : Memref sig .tc .vmem S4x1536 .f32) (harg2 : arg2.IsWhole)
    (arg3 : Memref sig .tc .vmem S4x1536 .f32) (harg3 : arg3.IsWhole) (arg4 : Memref sig .tc .vmem S1x1 .f32) (harg4 : arg4.IsWhole)
    (arg5 : Memref sig .tc .vmem S4x1 .f32) (harg5 : arg5.IsWhole) (arg6 : Memref sig .tc .vmem S4x257 .f32) (harg6 : arg6.IsWhole)
    (arg7 : Memref sig .tc .vmem S4x1 .f32) (harg7 : arg7.IsWhole) (hc0 : ¬cond1_0 i) (hc1 : cond1_1 i)
    (x0 : Vec F S4x257 .f32) (x1 : Vec F S4x1536 .f32) (x2 : Vec F S4x1536 .f32) (x3 : Vec F S1x1 .f32)
    (xs0 : Vec F S4x257 .f32) (xs1 : Vec F S4x1 .f32) :
    Σ' (L4 : List (View.Piece (Elt F) S4x1 .f32)), Σ' (LS0 : List (View.Piece (Elt F) S4x257 .f32)), { LS1 : List (View.Piece (Elt F) S4x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__chamfer_kernel i arg1 harg1 arg2 harg2 arg3 harg3 arg4 harg4 arg5 harg5 arg6 harg6 arg7 harg7) K } := by
  refine ⟨?_, ?_, ?_, fun E K => ?run⟩
  case run =>
    simp only [cc1__chamfer_kernel_eq_skeleton]; unfold cc1__chamfer_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.Kernel.Hand

end
-- ==== Proof.KBRegion1.lean ====
/-
  The second kernel region, continued: what each case of the body leaves in the two scratch buffers and in the
  output's buffer (its found pieces read back; they cover the buffer), what these hold after each grid point by
  recursion on the point, the invariant that carries the two scratch buffers from point to point at those contents,
  the region's proof data, and the body obligation at every point.
-/
import proofs.«149737_j80418967650489_1_alg».proof.Proof.Gen.Kernel.Launch
import proofs.«149737_j80418967650489_1_alg».proof.Proof.Gen.Kernel.Skeleton
import proofs.«149737_j80418967650489_1_alg».proof.Proof.Gen.Kernel.Points
import proofs.«149737_j80418967650489_1_alg».proof.Proof.KBRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Per case: the pieces cover, and what they leave -/

section Cases
variable (c : Dev nD) (i : grid1.Coords)
    (arg1 : Memref sig .tc .vmem S4x257 .f32) (harg1 : arg1.IsWhole) (arg2 : Memref sig .tc .vmem S4x1536 .f32) (harg2 : arg2.IsWhole)
    (arg3 : Memref sig .tc .vmem S4x1536 .f32) (harg3 : arg3.IsWhole) (arg4 : Memref sig .tc .vmem S1x1 .f32) (harg4 : arg4.IsWhole)
    (arg5 : Memref sig .tc .vmem S4x1 .f32) (harg5 : arg5.IsWhole) (arg6 : Memref sig .tc .vmem S4x257 .f32) (harg6 : arg6.IsWhole)
    (arg7 : Memref sig .tc .vmem S4x1 .f32) (harg7 : arg7.IsWhole)

theorem scover1_A_0 (hc0 : cond1_0 i) (hc1 : ¬cond1_1 i) (x0 : Vec F S4x257 .f32) (x1 : Vec F S4x1536 .f32) (x2 : Vec F S4x1536 .f32) (x3 : Vec F S1x1 .f32) (y : S4x257.Idx) :
    ∃ pc ∈ (kernelRun1_A c i arg1 harg1 arg2 harg2 arg3 harg3 arg4 harg4 arg5 harg5 arg6 harg6 arg7 harg7 hc0 hc1 x0 x1 x2 x3).1, y ∈ pc.1.set :=
  View.cover_of_tiledL (kernelRun1_A c i arg1 harg1 arg2 harg2 arg3 harg3 arg4 harg4 arg5 harg5 arg6 harg6 arg7 harg7 hc0 hc1 x0 x1 x2 x3).1 S4x257.size (by sl_kernel_rfl) y
theorem scover1_A_1 (hc0 : cond1_0 i) (hc1 : ¬cond1_1 i) (x0 : Vec F S4x257 .f32) (x1 : Vec F S4x1536 .f32) (x2 : Vec F S4x1536 .f32) (x3 : Vec F S1x1 .f32) (y : S4x1.Idx) :
    ∃ pc ∈ (kernelRun1_A c i arg1 harg1 arg2 harg2 arg3 harg3 arg4 harg4 arg5 harg5 arg6 harg6 arg7 harg7 hc0 hc1 x0 x1 x2 x3).2.1, y ∈ pc.1.set :=
  View.cover_of_tiledL (kernelRun1_A c i arg1 harg1 arg2 harg2 arg3 harg3 arg4 harg4 arg5 harg5 arg6 harg6 arg7 harg7 hc0 hc1 x0 x1 x2 x3).2.1 S4x1.size (by sl_kernel_rfl) y
/-- What the first point leaves in the running minima and in the running sums. -/
def sout1_A_0 (hc0 : cond1_0 i) (hc1 : ¬cond1_1 i) (x0 : Vec F S4x257 .f32) (x1 : Vec F S4x1536 .f32) (x2 : Vec F S4x1536 .f32) (x3 : Vec F S1x1 .f32) : Vec F S4x257 .f32 :=
  VS1_0.read (Elt F) (VS1_0.writes (Elt F) VS1_0.junk (kernelRun1_A c i arg1 harg1 arg2 harg2 arg3 harg3 arg4 harg4 arg5 harg5 arg6 harg6 arg7 harg7 hc0 hc1 x0 x1 x2 x3).1)
def sout1_A_1 (hc0 : cond1_0 i) (hc1 : ¬cond1_1 i) (x0 : Vec F S4x257 .f32) (x1 : Vec F S4x1536 .f32) (x2 : Vec F S4x1536 .f32) (x3 : Vec F S1x1 .f32) : Vec F S4x1 .f32 :=
  VS1_1.read (Elt F) (VS1_1.writes (Elt F) VS1_1.junk (kernelRun1_A c i arg1 harg1 arg2 harg2 arg3 harg3 arg4 harg4 arg5 harg5 arg6 harg6 arg7 harg7 hc0 hc1 x0 x1 x2 x3).2.1)

theorem scover1_B_0 (hc0 : ¬cond1_0 i) (hc1 : ¬cond1_1 i) (x0 : Vec F S4x257 .f32) (x1 : Vec F S4x1536 .f32) (x2 : Vec F S4x1536 .f32) (x3 : Vec F S1x1 .f32) (xs0 : Vec F S4x257 .f32) (xs1 : Vec F S4x1 .f32) (y : S4x257.Idx) :
    ∃ pc ∈ (kernelRun1_B c i arg1 harg1 arg2 harg2 arg3 harg3 arg4 harg4 arg5 harg5 arg6 harg6 arg7 harg7 hc0 hc1 x0 x1 x2 x3 xs0 xs1).1, y ∈ pc.1.set :=
  View.cover_of_tiledL (kernelRun1_B c i arg1 harg1 arg2 harg2 arg3 harg3 arg4 harg4 arg5 harg5 arg6 harg6 arg7 harg7 hc0 hc1 x0 x1 x2 x3 xs0 xs1).1 S4x257.size (by sl_kernel_rfl) y
theorem scover1_B_1 (hc0 : ¬cond1_0 i) (hc1 : ¬cond1_1 i) (x0 : Vec F S4x257 .f32) (x1 : Vec F S4x1536 .f32) (x2 : Vec F S4x1536 .f32) (x3 : Vec F S1x1 .f32) (xs0 : Vec F S4x257 .f32) (xs1 : Vec F S4x1 .f32) (y : S4x1.Idx) :
    ∃ pc ∈ (kernelRun1_B c i arg1 harg1 arg2 harg2 arg3 harg3 arg4 harg4 arg5 harg5 arg6 harg6 arg7 harg7 hc0 hc1 x0 x1 x2 x3 xs0 xs1).2.1, y ∈ pc.1.set :=
  View.cover_of_tiledL (kernelRun1_B c i arg1 harg1 arg2 harg2 arg3 harg3 arg4 harg4 arg5 harg5 arg6 harg6 arg7 harg7 hc0 hc1 x0 x1 x2 x3 xs0 xs1).2.1 S4x1.size (by sl_kernel_rfl) y
/-- What a point between leaves in the two scratch buffers, from what the point before left. -/
def sout1_B_0 (hc0 : ¬cond1_0 i) (hc1 : ¬cond1_1 i) (x0 : Vec F S4x257 .f32) (x1 : Vec F S4x1536 .f32) (x2 : Vec F S4x1536 .f32) (x3 : Vec F S1x1 .f32) (xs0 : Vec F S4x257 .f32) (xs1 : Vec F S4x1 .f32) : Vec F S4x257 .f32 :=
  VS1_0.read (Elt F) (VS1_0.writes (Elt F) VS1_0.junk (kernelRun1_B c i arg1 harg1 arg2 harg2 arg3 harg3 arg4 harg4 arg5 harg5 arg6 harg6 arg7 harg7 hc0 hc1 x0 x1 x2 x3 xs0 xs1).1)
def sout1_B_1 (hc0 : ¬cond1_0 i) (hc1 : ¬cond1_1 i) (x0 : Vec F S4x257 .f32) (x1 : Vec F S4x1536 .f32) (x2 : Vec F S4x1536 .f32) (x3 : Vec F S1x1 .f32) (xs0 : Vec F S4x257 .f32) (xs1 : Vec F S4x1 .f32) : Vec F S4x1 .f32 :=
  VS1_1.read (Elt F) (VS1_1.writes (Elt F) VS1_1.junk (kernelRun1_B c i arg1 harg1 arg2 harg2 arg3 harg3 arg4 harg4 arg5 harg5 arg6 harg6 arg7 harg7 hc0 hc1 x0 x1 x2 x3 xs0 xs1).2.1)

theorem cover1_C_4 (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) (y : S4x1.Idx) :
    ∃ pc ∈ (kernelRun1_C c i arg1 harg1 arg2 harg2 arg3 harg3 arg4 harg4 arg5 harg5 arg6 harg6 arg7 harg7 hc0 hc1 x0 x1 x2 x3 xs0 xs1).1, y ∈ pc.1.set :=
  View.cover_of_tiledL (kernelRun1_C c i arg1 harg1 arg2 harg2 arg3 harg3 arg4 harg4 arg5 harg5 arg6 harg6 arg7 harg7 hc0 hc1 x0 x1 x2 x3 xs0 xs1).1 S4x1.size (by sl_kernel_rfl) y
theorem scover1_C_0 (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) (y : S4x257.Idx) :
    ∃ pc ∈ (kernelRun1_C c i arg1 harg1 arg2 harg2 arg3 harg3 arg4 harg4 arg5 harg5 arg6 harg6 arg7 harg7 hc0 hc1 x0 x1 x2 x3 xs0 xs1).2.1, y ∈ pc.1.set :=
  View.cover_of_tiledL (kernelRun1_C c i arg1 harg1 arg2 harg2 arg3 harg3 arg4 harg4 arg5 harg5 arg6 harg6 arg7 harg7 hc0 hc1 x0 x1 x2 x3 xs0 xs1).2.1 S4x257.size (by sl_kernel_rfl) y
theorem scover1_C_1 (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) (y : S4x1.Idx) :
    ∃ pc ∈ (kernelRun1_C c i arg1 harg1 arg2 harg2 arg3 harg3 arg4 harg4 arg5 harg5 arg6 harg6 arg7 harg7 hc0 hc1 x0 x1 x2 x3 xs0 xs1).2.2.1, y ∈ pc.1.set :=
  View.cover_of_tiledL (kernelRun1_C c i arg1 harg1 arg2 harg2 arg3 harg3 arg4 harg4 arg5 harg5 arg6 harg6 arg7 harg7 hc0 hc1 x0 x1 x2 x3 xs0 xs1).2.2.1 S4x1.size (by sl_kernel_rfl) y
/-- What the last point leaves in the output's buffer and in the two scratch buffers. -/
def out1_C_4 (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) : Vec F S4x1 .f32 :=
  VO1_4.read (Elt F) (VO1_4.writes (Elt F) VO1_4.junk (kernelRun1_C c i arg1 harg1 arg2 harg2 arg3 harg3 arg4 harg4 arg5 harg5 arg6 harg6 arg7 harg7 hc0 hc1 x0 x1 x2 x3 xs0 xs1).1)
def sout1_C_0 (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) : Vec F S4x257 .f32 :=
  VS1_0.read (Elt F) (VS1_0.writes (Elt F) VS1_0.junk (kernelRun1_C c i arg1 harg1 arg2 harg2 arg3 harg3 arg4 harg4 arg5 harg5 arg6 harg6 arg7 harg7 hc0 hc1 x0 x1 x2 x3 xs0 xs1).2.1)
def sout1_C_1 (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) : Vec F S4x1 .f32 :=
  VS1_1.read (Elt F) (VS1_1.writes (Elt F) VS1_1.junk (kernelRun1_C c i arg1 harg1 arg2 harg2 arg3 harg3 arg4 harg4 arg5 harg5 arg6 harg6 arg7 harg7 hc0 hc1 x0 x1 x2 x3 xs0 xs1).2.2.1)

end Cases

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the buffers hold after each point -/

/-- A placeholder for the output's buffer at the points where the window is idle: nothing consults it (the block is
    neither written back there nor read at the next point). -/
def outIdle : Vec F S4x1 .f32 := VO1_4.read (Elt F) VO1_4.junk

/-- THE ACCUMULATION. After the body at position `n`: the output's buffer, the running minima, the running sums —
    the case the position selects, run at the point's buffers and input blocks, the two scratch buffers from what
    position `n - 1` left. -/
def outsAt1 (c : Dev nD) : (n : ℕ) → n < cfg1.N → Vec F S4x1 .f32 × Vec F S4x257 .f32 × Vec F S4x1 .f32
  | 0, hn =>
    (outIdle,
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
     sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h1 : (n + 1) % 50 = 49 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => by have hN : n + 1 < 50 := lt_of_lt_of_eq hn (show cfg1.N = 50 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => by have hN : n + 1 < 50 := lt_of_lt_of_eq hn (show cfg1.N = 50 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => by have hN : n + 1 < 50 := lt_of_lt_of_eq hn (show cfg1.N = 50 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
    else
      (outIdle,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => by have hN : n + 1 < 50 := lt_of_lt_of_eq hn (show cfg1.N = 50 from N_1); have h' := (hcond1_0 ⟨n + 1, hn⟩).mp h; (try dsimp only at h'); omega) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => by have hN : n + 1 < 50 := lt_of_lt_of_eq hn (show cfg1.N = 50 from N_1); have h' := (hcond1_0 ⟨n + 1, hn⟩).mp h; (try dsimp only at h'); omega) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

theorem outsAt1_A (c : Dev nD) (t : Fin cfg1.N) (h0 : t.val % 50 = 0) (h1 : ¬t.val % 50 = 49) :
    outsAt1 V c t.val t.isLt = (outIdle,
      sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t),
      sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (by exfalso; have hN : n + 1 < 50 := lt_of_lt_of_eq hn (show cfg1.N = 50 from N_1); (try dsimp only at h0); omega)

theorem outsAt1_B (c : Dev nD) (t : Fin cfg1.N) (h0 : ¬t.val % 50 = 0) (h1 : ¬t.val % 50 = 49) :
    outsAt1 V c t.val t.isLt = (outIdle,
      sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 50 = 0) (h1 : t.val % 50 = 49) :
    outsAt1 V c t.val t.isLt = (
      out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h1); omega)
  | succ n => exact (dif_pos h1).trans rfl

/-! ## The invariant that carries the scratch -/

/-- The region's invariant before position `n`: before the first point the class's (every scoped buffer that is no
    staging buffer of this region at anything, and the generator register); afterwards the same with the two scratch
    buffers at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f)
      ∗ owns (c : Thread nD τ) scM1_0 fullShare ((outsAt1 V c n hn).2.1) ∗ owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f)
      ∗ owns (c : Thread nD τ) scM1_0 fullShare ((outsAt1 V c n hn).2.1) ∗ owns (c : Thread nD τ) scM1_1 fullShare ((outsAt1 V c n hn).2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f)
      ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The region's proof data -/

/-- The proof data of the second region on core `c`: the arrays as the region finds them; after the body at point
    `t` each input's buffer at its block and the output's at `outsAt1`'s first component; the invariant `PhiS`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their blocks; the position says which case the point is in; the
    invariant hands the body the two scratch buffers at what the point before left (at anything at the first point)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 50 := lt_of_lt_of_eq t.isLt (show cfg1.N = 50 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val % 50 = 0
  · have h1 : ¬t.val % 50 = 49 := by omega
    have hz : t.val = 0 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0 sout1_A_1; (try dsimp only)
    rw [PhiS_castSucc V c t, PhiS_zero V c _ _ hz, PhiA1_eq]
    iintro ⟨⟨⟨Ha, Hb, Hc, Hd, HS0, HS1⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [Ha Hb Hc Hd HS0 HS1 Hg]
    · isplitr [Hg]
      · isplitl [Ha]; · iexact Ha
        isplitl [Hb]; · iexact Hb
        isplitl [Hc]; · iexact Hc
        isplitl [Hd]; · iexact Hd
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        unfold owns; iexists _; isplitr
        swap; · iexact HS1
        ipureintro; exact View.read_writes_of_cover _ _ _ _ _ (scover1_A_1 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 50 = 49
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0 sout1_C_1; (try dsimp only)
      rw [PhiS_castSucc V c t, PhiS_pos V c _ _ hz]
      iintro ⟨⟨⟨Ha, Hb, Hc, Hd, HS0, HS1⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Ha Hb Hc Hd HS0 HS1 Hg]
      · isplitr [Hg]
        · isplitl [Ha]; · iexact Ha
          isplitl [Hb]; · iexact Hb
          isplitl [Hc]; · iexact Hc
          isplitl [Hd]; · iexact Hd
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0 sout1_B_1; (try dsimp only)
      rw [PhiS_castSucc V c t, PhiS_pos V c _ _ hz]
      iintro ⟨⟨⟨Ha, Hb, Hc, Hd, HS0, HS1⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [Ha Hb Hc Hd HS0 HS1 Hg]
      · isplitr [Hg]
        · isplitl [Ha]; · iexact Ha
          isplitl [Hb]; · iexact Hb
          isplitl [Hc]; · iexact Hc
          isplitl [Hd]; · iexact Hd
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the scratch buffers' contents forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hc, Hd, HS0, HS1⟩, Hg⟩
  isplitr [Hg]
  · isplitl [Ha]; · iexact Ha
    isplitl [Hb]; · iexact Hb
    isplitl [Hc]; · iexact Hc
    isplitl [Hd]; · iexact Hd
    isplitl [HS0]; · iexists _; iexact HS0
    iexists _; iexact HS1
  iexact Hg

theorem Phi_last1 (c : Dev nD) : (dat1 V c).Φ (Fin.last cfg1.N) ⊢ Pipeline.ΦA spec1 c :=
  Phi_out1 V c _ (by rw [Fin.val_last]; have : cfg1.N = 50 := N_1; omega)

theorem Phi_first1 (c : Dev nD) : (dat1 V c).Φ 0 = Pipeline.ΦA spec1 c := rfl

end Cert.Kernel.Hand

end
-- ==== Proof.KBRun.lean ====
/-
  The whole run of the kernel program: its @main is a stretch of host operations (the two reshapes and the mask's
  conversion), the first kernel region, a second stretch (the padding value broadcast and joined to the centers), the
  second kernel region, and a last stretch (the sum over the batch and the division). The contents of every buffer at
  each of the six boundaries are named by a fold from the launch memory: a stretch applies its operations, a region
  puts its arrays at what its write-backs leave and keeps every other buffer. Each region is a segment whose proof
  data are the region's, entered from the buffers at the boundary before it and left at the boundary after it; the
  library's launch theorem for a list of segments then gives: every weakly fair execution terminates, and every buffer
  ends at the last boundary's contents.
-/
import proofs.«149737_j80418967650489_1_alg».proof.Proof.Gen.Kernel.Launch
import proofs.«149737_j80418967650489_1_alg».proof.Proof.Gen.Kernel.Skeleton
import proofs.«149737_j80418967650489_1_alg».proof.Proof.Gen.Kernel.Points
import proofs.«149737_j80418967650489_1_alg».proof.Proof.KBRegion0
import proofs.«149737_j80418967650489_1_alg».proof.Proof.KBRegion1
import proofs.«149737_j80418967650489_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first host stretch (the first region's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the first region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the second region's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the second region's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last host stretch: the contents the run ends at. -/
abbrev B5 : Dev nD → Valuation τ sig (Elt F) := fun c => StableHlo.after hostOps2 (B4 m ρ c)

/-! ## The proof data family and the thread state -/

abbrev adm : (p : Fin 2) → (pcfgs (F := F) p).Adm := fun p => (cfgs p).toPCfg_adm
/-- Every region's proof data, each at its region's entry contents — a literal match on the region's number. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (B5 m ρ c) ∗ ∃ r, prngReg c r)

/-! ## The regions as segments -/

set_option backward.isDefEq.respectTransparency.types false in
/-- THE FIRST REGION over the thread state: entered from every unscoped buffer at `B1`, left at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `B3`, left at `B4`; its
    invariant starts as the class's and, after the last point, gives the class's back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_last1 (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => (show iprop(StableHlo.held (c : Thread nD τ) (Pipeline.ucRefs τ sig) (B5 m ρ c) ∗ R c)
          ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

end Cert.Kernel.Hand

end
-- ==== Proof.KBFrame.lean ====
/-
  The frame of the kernel program, read off its run: no host operation writes an argument array and no region may
  change one (a region reads it through an input window, whose array the write-backs never touch, or passes it by),
  so each argument's buffer at the last boundary walks back, boundary by boundary, to the launch memory.
-/
import proofs.«149737_j80418967650489_1_alg».proof.Proof.Gen.Kernel.Launch
import proofs.«149737_j80418967650489_1_alg».proof.Proof.Gen.Kernel.Skeleton
import proofs.«149737_j80418967650489_1_alg».proof.Proof.Gen.Kernel.Points
import proofs.«149737_j80418967650489_1_alg».proof.Proof.KBRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := StableHlo.after_of_writes_sub hostOps2 _ hostOps2_writes (by decide)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl

theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := StableHlo.after_of_writes_sub hostOps2 _ hostOps2_writes (by decide)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := (B2_arr m ρ c 2).trans (((dat0 (E1 m ρ) c).arrAt_in 2 rfl _).trans (A_eq0 (E1 m ρ) c 2))
    _ = B0 m ρ c (Proc.devRef .tc main_arg1) := StableHlo.after_of_writes_sub hostOps0 _ hostOps0_writes (by decide)
    _ = m ((c : Thread nD τ).loc main_arg1) := rfl

theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := StableHlo.after_of_writes_sub hostOps2 _ hostOps2_writes (by decide)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl

/-- THE FRAME, at any `F`: every weakly fair execution of @main terminates, nothing faulting, and the three argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c)⟩) (run_all m ρ)

end Cert.Kernel.Hand

end
-- ==== Proof.KIRegion0.lean ====
/-
  The first kernel region (the padding value): one grid point; three input windows — the flattened target, the
  flattened mask as floats, the centers — each a single whole-array block, and one output window, the 1×1 padding
  value. The body loads the three inputs, and stores into the output's buffer one value computed from them; so after
  the body the output's buffer holds that value of the three input blocks, whatever it held before, and the inputs'
  buffers are as they were. Stated at any contents `V` of the core's buffers when the region is entered.
-/
import proofs.«149737_j80418967650489_1_alg».proof.Proof.Gen.KernelIdeal.Launch
import proofs.«149737_j80418967650489_1_alg».proof.Proof.Gen.KernelIdeal.Skeleton
import proofs.«149737_j80418967650489_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_a : Rect S4x76800 := Rect.unit (s := S4x76800) ![0, 0] S4x76800.size inb_S4x76800_S4x76800_0_0
abbrev r0_c : Rect S4x256 := Rect.unit (s := S4x256) ![0, 0] S4x256.size inb_S4x256_S4x256_0_0
abbrev r0_o : Rect S1x1 := Rect.unit (s := S1x1) ![0, 0] S1x1.size inb_S1x1_S1x1_0_0

/-! ## What the body leaves in the output window's buffer -/

/-- The output's buffer after the body: its one store, of the padding value computed from the three input blocks. -/
def out0_3 (x0 : Vec F S4x76800 .f32) (x1 : Vec F S4x76800 .f32) (x2 : Vec F S4x256 .f32) : Vec F S1x1 .f32 :=
  View.canon [⟨r0_o, k0_pay1 (View.ld x0 r0_a) (View.ld x1 r0_a) (View.ld x2 r0_c)⟩]

/-- The one store covers the 1×1 buffer. -/
theorem cover0_3 (p0 : Vec F S1x1 .f32) (y : S1x1.Idx) :
    ∃ pc ∈ ([⟨r0_o, p0⟩] : List (View.Piece (Elt F) S1x1 .f32)), y ∈ pc.1.set :=
  View.cover_of_tiled [⟨r0_o, p0⟩] S1x1.size (by rfl) y

/-! ## The body's triple -/

set_option maxHeartbeats 1000000 in
/-- The body on whole buffers, the inputs' at contents `x0 x1 x2` and the output's at anything, runs to the
    continuation with the inputs' as they were and the output's at `out0_3` of them. -/
theorem sound_kernel0 (c : Dev nD) (E : Set ℕ) (i : grid0.Coords)
    (arg1 : Memref sig .tc .vmem S4x76800 .f32) (harg1 : arg1.IsWhole) (arg2 : Memref sig .tc .vmem S4x76800 .f32) (harg2 : arg2.IsWhole)
    (arg3 : Memref sig .tc .vmem S4x256 .f32) (harg3 : arg3.IsWhole) (arg4 : Memref sig .tc .vmem S1x1 .f32) (harg4 : arg4.IsWhole)
    (x0 : Vec F S4x76800 .f32) (x1 : Vec F S4x76800 .f32) (x2 : Vec F S4x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__padval_kernel i arg1 harg1 arg2 harg2 arg3 harg3 arg4 harg4) K := by
  simp only [cc0__padval_kernel_eq_skeleton]; unfold cc0__padval_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the first region on core `c`: the arrays as the region finds them; after the body each
    input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRuns.lean ====
/-
  The second kernel region (the two-sided nearest-squared-distance sums): a grid of 50 points over the flattened
  pixel axis. Four input windows — the padded centers and the 1×1 padding value, whole arrays fetched once; the
  target's and the mask's blocks of 1536 pixels, fetched at every point — one output window, the 4×1 per-batch sums,
  and two scratch buffers the kernel keeps from one point to the next: the running minima [4, 257] and the running
  sums [4, 1]. The body resets both scratch buffers at the first point, updates both at every point, and at the last
  point alone stores the output, from the two scratch buffers. So there are three cases of its two conditionals:
  the first point, the points between, the last point. This module states the conditions in closed form over the
  grid, where the output window is idle, and the body's run in each case, the pieces each buffer ends with found by
  the run itself.
-/
import proofs.«149737_j80418967650489_1_alg».proof.Proof.Gen.KernelIdeal.Launch
import proofs.«149737_j80418967650489_1_alg».proof.Proof.Gen.KernelIdeal.Skeleton
import proofs.«149737_j80418967650489_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the reset, from the grid coordinate: it holds at the first point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)

/-- The condition of the final store: it holds at the last point only. -/
abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point the output window is idle (the body stores nothing into it) -/
theorem idleAt1_4 : ∀ t : Fin cfg1.N, ¬cond1_1 (grid1.coords t) → cfg1.idle 4 (grid1.coords t) = true := by decide +kernel
/-- and its block is not written back; -/
theorem noFlush1_4 : ∀ t : Fin cfg1.N, ¬cond1_1 (grid1.coords t) → (cfg1.win 4).flush t = false := by decide +kernel
/-- at the last point it is live. -/
theorem liveAt1_4 : ∀ t : Fin cfg1.N, cond1_1 (grid1.coords t) → cfg1.idle 4 (grid1.coords t) = false := by decide +kernel

/-! ## The buffers the body is called on -/

/-- One buffer of the output window, through which its contents are stated. -/
abbrev VO1_4 : View sig .tc .vmem S4x1 .f32 := (Memref.whole cc1_stg4_0 : Memref sig .tc .vmem S4x1 .f32).view
/-- Each window's current buffer at point `t`, spelt as the pipeline passes it, and its wholeness. -/
abbrev ms1_0 (t : Fin cfg1.N) : Memref sig .tc .vmem S4x257 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x1536 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x1536 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x1 .f32 := win1_4.stage (cfg1.slots t 4)
abbrev hs1_4 (t : Fin cfg1.N) : (ms1_4 t).IsWhole := hstage1_4 ((cfg1.slots t 4).cast nbuf1_4)
/-- The two scratch buffers: whole buffers of the kernel's own. -/
abbrev scM1_0 : Memref sig .tc .vmem S4x257 .f32 := Memref.whole cc1_scratch0
abbrev scM1_1 : Memref sig .tc .vmem S4x1 .f32 := Memref.whole cc1_scratch1
abbrev VS1_0 : View sig .tc .vmem S4x257 .f32 := scM1_0.view
abbrev VS1_1 : View sig .tc .vmem S4x1 .f32 := scM1_1.view

/-- The class's invariant with the two scratch buffers owned at some contents: the first region's four buffers at
    anything, the two scratch buffers, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## The body's run, case by case -/

set_option maxHeartbeats 4000000 in
/-- THE FIRST POINT (the reset taken, the final store not): on whole buffers — the inputs' at their contents, the
    output's, idle here, at contents handed back untouched, both scratch buffers at anything — the body runs to the
    continuation holding the inputs' as they were and each scratch buffer with its pieces written. -/
noncomputable def kernelRun1_A (c : Dev nD) (i : grid1.Coords)
    (arg1 : Memref sig .tc .vmem S4x257 .f32) (harg1 : arg1.IsWhole) (arg2 : Memref sig .tc .vmem S4x1536 .f32) (harg2 : arg2.IsWhole)
    (arg3 : Memref sig .tc .vmem S4x1536 .f32) (harg3 : arg3.IsWhole) (arg4 : Memref sig .tc .vmem S1x1 .f32) (harg4 : arg4.IsWhole)
    (arg5 : Memref sig .tc .vmem S4x1 .f32) (harg5 : arg5.IsWhole) (arg6 : Memref sig .tc .vmem S4x257 .f32) (harg6 : arg6.IsWhole)
    (arg7 : Memref sig .tc .vmem S4x1 .f32) (harg7 : arg7.IsWhole) (hc0 : cond1_0 i) (hc1 : ¬cond1_1 i)
    (x0 : Vec F S4x257 .f32) (x1 : Vec F S4x1536 .f32) (x2 : Vec F S4x1536 .f32) (x3 : Vec F S1x1 .f32) :
    Σ' (LS0 : List (View.Piece (Elt F) S4x257 .f32)), { LS1 : List (View.Piece (Elt F) S4x1 .f32) //
      ∀ (xi4 : Vec F S4x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare xi4
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__chamfer_kernel i arg1 harg1 arg2 harg2 arg3 harg3 arg4 harg4 arg5 harg5 arg6 harg6 arg7 harg7) K } := by
  refine ⟨?_, ?_, fun xi4 E K => ?run⟩
  case run =>
    simp only [cc1__chamfer_kernel_eq_skeleton]; unfold cc1__chamfer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
/-- A POINT BETWEEN (neither conditional taken): the scratch buffers at the contents the point before left, the
    output idle; the body leaves each scratch buffer with its pieces written. -/
noncomputable def kernelRun1_B (c : Dev nD) (i : grid1.Coords)
    (arg1 : Memref sig .tc .vmem S4x257 .f32) (harg1 : arg1.IsWhole) (arg2 : Memref sig .tc .vmem S4x1536 .f32) (harg2 : arg2.IsWhole)
    (arg3 : Memref sig .tc .vmem S4x1536 .f32) (harg3 : arg3.IsWhole) (arg4 : Memref sig .tc .vmem S1x1 .f32) (harg4 : arg4.IsWhole)
    (arg5 : Memref sig .tc .vmem S4x1 .f32) (harg5 : arg5.IsWhole) (arg6 : Memref sig .tc .vmem S4x257 .f32) (harg6 : arg6.IsWhole)
    (arg7 : Memref sig .tc .vmem S4x1 .f32) (harg7 : arg7.IsWhole) (hc0 : ¬cond1_0 i) (hc1 : ¬cond1_1 i)
    (x0 : Vec F S4x257 .f32) (x1 : Vec F S4x1536 .f32) (x2 : Vec F S4x1536 .f32) (x3 : Vec F S1x1 .f32)
    (xs0 : Vec F S4x257 .f32) (xs1 : Vec F S4x1 .f32) :
    Σ' (LS0 : List (View.Piece (Elt F) S4x257 .f32)), { LS1 : List (View.Piece (Elt F) S4x1 .f32) //
      ∀ (xi4 : Vec F S4x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xi4
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__chamfer_kernel i arg1 harg1 arg2 harg2 arg3 harg3 arg4 harg4 arg5 harg5 arg6 harg6 arg7 harg7) K } := by
  refine ⟨?_, ?_, fun xi4 E K => ?run⟩
  case run =>
    simp only [cc1__chamfer_kernel_eq_skeleton]; unfold cc1__chamfer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

set_option maxHeartbeats 4000000 in
/-- THE LAST POINT (the reset not taken, the final store taken): the scratch buffers at the contents the point before
    left, the output's buffer at anything; the body leaves each scratch buffer and the output's buffer with its pieces
    written. -/
noncomputable def kernelRun1_C (c : Dev nD) (i : grid1.Coords)
    (arg1 : Memref sig .tc .vmem S4x257 .f32) (harg1 : arg1.IsWhole) (arg2 : Memref sig .tc .vmem S4x1536 .f32) (harg2 : arg2.IsWhole)
    (arg3 : Memref sig .tc .vmem S4x1536 .f32) (harg3 : arg3.IsWhole) (arg4 : Memref sig .tc .vmem S1x1 .f32) (harg4 : arg4.IsWhole)
    (arg5 : Memref sig .tc .vmem S4x1 .f32) (harg5 : arg5.IsWhole) (arg6 : Memref sig .tc .vmem S4x257 .f32) (harg6 : arg6.IsWhole)
    (arg7 : Memref sig .tc .vmem S4x1 .f32) (harg7 : arg7.IsWhole) (hc0 : ¬cond1_0 i) (hc1 : cond1_1 i)
    (x0 : Vec F S4x257 .f32) (x1 : Vec F S4x1536 .f32) (x2 : Vec F S4x1536 .f32) (x3 : Vec F S1x1 .f32)
    (xs0 : Vec F S4x257 .f32) (xs1 : Vec F S4x1 .f32) :
    Σ' (L4 : List (View.Piece (Elt F) S4x1 .f32)), Σ' (LS0 : List (View.Piece (Elt F) S4x257 .f32)), { LS1 : List (View.Piece (Elt F) S4x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)
            ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__chamfer_kernel i arg1 harg1 arg2 harg2 arg3 harg3 arg4 harg4 arg5 harg5 arg6 harg6 arg7 harg7) K } := by
  refine ⟨?_, ?_, ?_, fun E K => ?run⟩
  case run =>
    simp only [cc1__chamfer_kernel_eq_skeleton]; unfold cc1__chamfer_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.KernelIdeal.Hand

end
-- ==== Proof.KIRegion1.lean ====
/-
  The second kernel region, continued: what each case of the body leaves in the two scratch buffers and in the
  output's buffer (its found pieces read back; they cover the buffer), what these hold after each grid point by
  recursion on the point, the invariant that carries the two scratch buffers from point to point at those contents,
  the region's proof data, and the body obligation at every point.
-/
import proofs.«149737_j80418967650489_1_alg».proof.Proof.Gen.KernelIdeal.Launch
import proofs.«149737_j80418967650489_1_alg».proof.Proof.Gen.KernelIdeal.Skeleton
import proofs.«149737_j80418967650489_1_alg».proof.Proof.Gen.KernelIdeal.Points
import proofs.«149737_j80418967650489_1_alg».proof.Proof.KIRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Per case: the pieces cover, and what they leave -/

section Cases
variable (c : Dev nD) (i : grid1.Coords)
    (arg1 : Memref sig .tc .vmem S4x257 .f32) (harg1 : arg1.IsWhole) (arg2 : Memref sig .tc .vmem S4x1536 .f32) (harg2 : arg2.IsWhole)
    (arg3 : Memref sig .tc .vmem S4x1536 .f32) (harg3 : arg3.IsWhole) (arg4 : Memref sig .tc .vmem S1x1 .f32) (harg4 : arg4.IsWhole)
    (arg5 : Memref sig .tc .vmem S4x1 .f32) (harg5 : arg5.IsWhole) (arg6 : Memref sig .tc .vmem S4x257 .f32) (harg6 : arg6.IsWhole)
    (arg7 : Memref sig .tc .vmem S4x1 .f32) (harg7 : arg7.IsWhole)

theorem scover1_A_0 (hc0 : cond1_0 i) (hc1 : ¬cond1_1 i) (x0 : Vec F S4x257 .f32) (x1 : Vec F S4x1536 .f32) (x2 : Vec F S4x1536 .f32) (x3 : Vec F S1x1 .f32) (y : S4x257.Idx) :
    ∃ pc ∈ (kernelRun1_A c i arg1 harg1 arg2 harg2 arg3 harg3 arg4 harg4 arg5 harg5 arg6 harg6 arg7 harg7 hc0 hc1 x0 x1 x2 x3).1, y ∈ pc.1.set :=
  View.cover_of_tiledL (kernelRun1_A c i arg1 harg1 arg2 harg2 arg3 harg3 arg4 harg4 arg5 harg5 arg6 harg6 arg7 harg7 hc0 hc1 x0 x1 x2 x3).1 S4x257.size (by sl_kernel_rfl) y
theorem scover1_A_1 (hc0 : cond1_0 i) (hc1 : ¬cond1_1 i) (x0 : Vec F S4x257 .f32) (x1 : Vec F S4x1536 .f32) (x2 : Vec F S4x1536 .f32) (x3 : Vec F S1x1 .f32) (y : S4x1.Idx) :
    ∃ pc ∈ (kernelRun1_A c i arg1 harg1 arg2 harg2 arg3 harg3 arg4 harg4 arg5 harg5 arg6 harg6 arg7 harg7 hc0 hc1 x0 x1 x2 x3).2.1, y ∈ pc.1.set :=
  View.cover_of_tiledL (kernelRun1_A c i arg1 harg1 arg2 harg2 arg3 harg3 arg4 harg4 arg5 harg5 arg6 harg6 arg7 harg7 hc0 hc1 x0 x1 x2 x3).2.1 S4x1.size (by sl_kernel_rfl) y
/-- What the first point leaves in the running minima and in the running sums. -/
def sout1_A_0 (hc0 : cond1_0 i) (hc1 : ¬cond1_1 i) (x0 : Vec F S4x257 .f32) (x1 : Vec F S4x1536 .f32) (x2 : Vec F S4x1536 .f32) (x3 : Vec F S1x1 .f32) : Vec F S4x257 .f32 :=
  VS1_0.read (Elt F) (VS1_0.writes (Elt F) VS1_0.junk (kernelRun1_A c i arg1 harg1 arg2 harg2 arg3 harg3 arg4 harg4 arg5 harg5 arg6 harg6 arg7 harg7 hc0 hc1 x0 x1 x2 x3).1)
def sout1_A_1 (hc0 : cond1_0 i) (hc1 : ¬cond1_1 i) (x0 : Vec F S4x257 .f32) (x1 : Vec F S4x1536 .f32) (x2 : Vec F S4x1536 .f32) (x3 : Vec F S1x1 .f32) : Vec F S4x1 .f32 :=
  VS1_1.read (Elt F) (VS1_1.writes (Elt F) VS1_1.junk (kernelRun1_A c i arg1 harg1 arg2 harg2 arg3 harg3 arg4 harg4 arg5 harg5 arg6 harg6 arg7 harg7 hc0 hc1 x0 x1 x2 x3).2.1)

theorem scover1_B_0 (hc0 : ¬cond1_0 i) (hc1 : ¬cond1_1 i) (x0 : Vec F S4x257 .f32) (x1 : Vec F S4x1536 .f32) (x2 : Vec F S4x1536 .f32) (x3 : Vec F S1x1 .f32) (xs0 : Vec F S4x257 .f32) (xs1 : Vec F S4x1 .f32) (y : S4x257.Idx) :
    ∃ pc ∈ (kernelRun1_B c i arg1 harg1 arg2 harg2 arg3 harg3 arg4 harg4 arg5 harg5 arg6 harg6 arg7 harg7 hc0 hc1 x0 x1 x2 x3 xs0 xs1).1, y ∈ pc.1.set :=
  View.cover_of_tiledL (kernelRun1_B c i arg1 harg1 arg2 harg2 arg3 harg3 arg4 harg4 arg5 harg5 arg6 harg6 arg7 harg7 hc0 hc1 x0 x1 x2 x3 xs0 xs1).1 S4x257.size (by sl_kernel_rfl) y
theorem scover1_B_1 (hc0 : ¬cond1_0 i) (hc1 : ¬cond1_1 i) (x0 : Vec F S4x257 .f32) (x1 : Vec F S4x1536 .f32) (x2 : Vec F S4x1536 .f32) (x3 : Vec F S1x1 .f32) (xs0 : Vec F S4x257 .f32) (xs1 : Vec F S4x1 .f32) (y : S4x1.Idx) :
    ∃ pc ∈ (kernelRun1_B c i arg1 harg1 arg2 harg2 arg3 harg3 arg4 harg4 arg5 harg5 arg6 harg6 arg7 harg7 hc0 hc1 x0 x1 x2 x3 xs0 xs1).2.1, y ∈ pc.1.set :=
  View.cover_of_tiledL (kernelRun1_B c i arg1 harg1 arg2 harg2 arg3 harg3 arg4 harg4 arg5 harg5 arg6 harg6 arg7 harg7 hc0 hc1 x0 x1 x2 x3 xs0 xs1).2.1 S4x1.size (by sl_kernel_rfl) y
/-- What a point between leaves in the two scratch buffers, from what the point before left. -/
def sout1_B_0 (hc0 : ¬cond1_0 i) (hc1 : ¬cond1_1 i) (x0 : Vec F S4x257 .f32) (x1 : Vec F S4x1536 .f32) (x2 : Vec F S4x1536 .f32) (x3 : Vec F S1x1 .f32) (xs0 : Vec F S4x257 .f32) (xs1 : Vec F S4x1 .f32) : Vec F S4x257 .f32 :=
  VS1_0.read (Elt F) (VS1_0.writes (Elt F) VS1_0.junk (kernelRun1_B c i arg1 harg1 arg2 harg2 arg3 harg3 arg4 harg4 arg5 harg5 arg6 harg6 arg7 harg7 hc0 hc1 x0 x1 x2 x3 xs0 xs1).1)
def sout1_B_1 (hc0 : ¬cond1_0 i) (hc1 : ¬cond1_1 i) (x0 : Vec F S4x257 .f32) (x1 : Vec F S4x1536 .f32) (x2 : Vec F S4x1536 .f32) (x3 : Vec F S1x1 .f32) (xs0 : Vec F S4x257 .f32) (xs1 : Vec F S4x1 .f32) : Vec F S4x1 .f32 :=
  VS1_1.read (Elt F) (VS1_1.writes (Elt F) VS1_1.junk (kernelRun1_B c i arg1 harg1 arg2 harg2 arg3 harg3 arg4 harg4 arg5 harg5 arg6 harg6 arg7 harg7 hc0 hc1 x0 x1 x2 x3 xs0 xs1).2.1)

theorem cover1_C_4 (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) (y : S4x1.Idx) :
    ∃ pc ∈ (kernelRun1_C c i arg1 harg1 arg2 harg2 arg3 harg3 arg4 harg4 arg5 harg5 arg6 harg6 arg7 harg7 hc0 hc1 x0 x1 x2 x3 xs0 xs1).1, y ∈ pc.1.set :=
  View.cover_of_tiledL (kernelRun1_C c i arg1 harg1 arg2 harg2 arg3 harg3 arg4 harg4 arg5 harg5 arg6 harg6 arg7 harg7 hc0 hc1 x0 x1 x2 x3 xs0 xs1).1 S4x1.size (by sl_kernel_rfl) y
theorem scover1_C_0 (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) (y : S4x257.Idx) :
    ∃ pc ∈ (kernelRun1_C c i arg1 harg1 arg2 harg2 arg3 harg3 arg4 harg4 arg5 harg5 arg6 harg6 arg7 harg7 hc0 hc1 x0 x1 x2 x3 xs0 xs1).2.1, y ∈ pc.1.set :=
  View.cover_of_tiledL (kernelRun1_C c i arg1 harg1 arg2 harg2 arg3 harg3 arg4 harg4 arg5 harg5 arg6 harg6 arg7 harg7 hc0 hc1 x0 x1 x2 x3 xs0 xs1).2.1 S4x257.size (by sl_kernel_rfl) y
theorem scover1_C_1 (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) (y : S4x1.Idx) :
    ∃ pc ∈ (kernelRun1_C c i arg1 harg1 arg2 harg2 arg3 harg3 arg4 harg4 arg5 harg5 arg6 harg6 arg7 harg7 hc0 hc1 x0 x1 x2 x3 xs0 xs1).2.2.1, y ∈ pc.1.set :=
  View.cover_of_tiledL (kernelRun1_C c i arg1 harg1 arg2 harg2 arg3 harg3 arg4 harg4 arg5 harg5 arg6 harg6 arg7 harg7 hc0 hc1 x0 x1 x2 x3 xs0 xs1).2.2.1 S4x1.size (by sl_kernel_rfl) y
/-- What the last point leaves in the output's buffer and in the two scratch buffers. -/
def out1_C_4 (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) : Vec F S4x1 .f32 :=
  VO1_4.read (Elt F) (VO1_4.writes (Elt F) VO1_4.junk (kernelRun1_C c i arg1 harg1 arg2 harg2 arg3 harg3 arg4 harg4 arg5 harg5 arg6 harg6 arg7 harg7 hc0 hc1 x0 x1 x2 x3 xs0 xs1).1)
def sout1_C_0 (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) : Vec F S4x257 .f32 :=
  VS1_0.read (Elt F) (VS1_0.writes (Elt F) VS1_0.junk (kernelRun1_C c i arg1 harg1 arg2 harg2 arg3 harg3 arg4 harg4 arg5 harg5 arg6 harg6 arg7 harg7 hc0 hc1 x0 x1 x2 x3 xs0 xs1).2.1)
def sout1_C_1 (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) : Vec F S4x1 .f32 :=
  VS1_1.read (Elt F) (VS1_1.writes (Elt F) VS1_1.junk (kernelRun1_C c i arg1 harg1 arg2 harg2 arg3 harg3 arg4 harg4 arg5 harg5 arg6 harg6 arg7 harg7 hc0 hc1 x0 x1 x2 x3 xs0 xs1).2.2.1)

end Cases

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the buffers hold after each point -/

/-- A placeholder for the output's buffer at the points where the window is idle: nothing consults it (the block is
    neither written back there nor read at the next point). -/
def outIdle : Vec F S4x1 .f32 := VO1_4.read (Elt F) VO1_4.junk

/-- THE ACCUMULATION. After the body at position `n`: the output's buffer, the running minima, the running sums —
    the case the position selects, run at the point's buffers and input blocks, the two scratch buffers from what
    position `n - 1` left. -/
def outsAt1 (c : Dev nD) : (n : ℕ) → n < cfg1.N → Vec F S4x1 .f32 × Vec F S4x257 .f32 × Vec F S4x1 .f32
  | 0, hn =>
    (outIdle,
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
     sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h1 : (n + 1) % 50 = 49 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => by have hN : n + 1 < 50 := lt_of_lt_of_eq hn (show cfg1.N = 50 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => by have hN : n + 1 < 50 := lt_of_lt_of_eq hn (show cfg1.N = 50 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => by have hN : n + 1 < 50 := lt_of_lt_of_eq hn (show cfg1.N = 50 from N_1); have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
    else
      (outIdle,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => by have hN : n + 1 < 50 := lt_of_lt_of_eq hn (show cfg1.N = 50 from N_1); have h' := (hcond1_0 ⟨n + 1, hn⟩).mp h; (try dsimp only at h'); omega) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => by have hN : n + 1 < 50 := lt_of_lt_of_eq hn (show cfg1.N = 50 from N_1); have h' := (hcond1_0 ⟨n + 1, hn⟩).mp h; (try dsimp only at h'); omega) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

theorem outsAt1_A (c : Dev nD) (t : Fin cfg1.N) (h0 : t.val % 50 = 0) (h1 : ¬t.val % 50 = 49) :
    outsAt1 V c t.val t.isLt = (outIdle,
      sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t),
      sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (by exfalso; have hN : n + 1 < 50 := lt_of_lt_of_eq hn (show cfg1.N = 50 from N_1); (try dsimp only at h0); omega)

theorem outsAt1_B (c : Dev nD) (t : Fin cfg1.N) (h0 : ¬t.val % 50 = 0) (h1 : ¬t.val % 50 = 49) :
    outsAt1 V c t.val t.isLt = (outIdle,
      sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 50 = 0) (h1 : t.val % 50 = 49) :
    outsAt1 V c t.val t.isLt = (
      out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h1); omega)
  | succ n => exact (dif_pos h1).trans rfl

/-! ## The invariant that carries the scratch -/

/-- The region's invariant before position `n`: before the first point the class's (every scoped buffer that is no
    staging buffer of this region at anything, and the generator register); afterwards the same with the two scratch
    buffers at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f)
      ∗ owns (c : Thread nD τ) scM1_0 fullShare ((outsAt1 V c n hn).2.1) ∗ owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f)
      ∗ owns (c : Thread nD τ) scM1_0 fullShare ((outsAt1 V c n hn).2.1) ∗ owns (c : Thread nD τ) scM1_1 fullShare ((outsAt1 V c n hn).2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f)
      ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The region's proof data -/

/-- The proof data of the second region on core `c`: the arrays as the region finds them; after the body at point
    `t` each input's buffer at its block and the output's at `outsAt1`'s first component; the invariant `PhiS`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their blocks; the position says which case the point is in; the
    invariant hands the body the two scratch buffers at what the point before left (at anything at the first point)
    and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 50 := lt_of_lt_of_eq t.isLt (show cfg1.N = 50 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val % 50 = 0
  · have h1 : ¬t.val % 50 = 49 := by omega
    have hz : t.val = 0 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0 sout1_A_1; (try dsimp only)
    rw [PhiS_castSucc V c t, PhiS_zero V c _ _ hz, PhiA1_eq]
    iintro ⟨⟨⟨Ha, Hb, Hc, Hd, HS0, HS1⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [Ha Hb Hc Hd HS0 HS1 Hg]
    · isplitr [Hg]
      · isplitl [Ha]; · iexact Ha
        isplitl [Hb]; · iexact Hb
        isplitl [Hc]; · iexact Hc
        isplitl [Hd]; · iexact Hd
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        unfold owns; iexists _; isplitr
        swap; · iexact HS1
        ipureintro; exact View.read_writes_of_cover _ _ _ _ _ (scover1_A_1 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 50 = 49
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0 sout1_C_1; (try dsimp only)
      rw [PhiS_castSucc V c t, PhiS_pos V c _ _ hz]
      iintro ⟨⟨⟨Ha, Hb, Hc, Hd, HS0, HS1⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [Ha Hb Hc Hd HS0 HS1 Hg]
      · isplitr [Hg]
        · isplitl [Ha]; · iexact Ha
          isplitl [Hb]; · iexact Hb
          isplitl [Hc]; · iexact Hc
          isplitl [Hd]; · iexact Hd
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0 sout1_B_1; (try dsimp only)
      rw [PhiS_castSucc V c t, PhiS_pos V c _ _ hz]
      iintro ⟨⟨⟨Ha, Hb, Hc, Hd, HS0, HS1⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [Ha Hb Hc Hd HS0 HS1 Hg]
      · isplitr [Hg]
        · isplitl [Ha]; · iexact Ha
          isplitl [Hb]; · iexact Hb
          isplitl [Hc]; · iexact Hc
          isplitl [Hd]; · iexact Hd
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the scratch buffers' contents forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hc, Hd, HS0, HS1⟩, Hg⟩
  isplitr [Hg]
  · isplitl [Ha]; · iexact Ha
    isplitl [Hb]; · iexact Hb
    isplitl [Hc]; · iexact Hc
    isplitl [Hd]; · iexact Hd
    isplitl [HS0]; · iexists _; iexact HS0
    iexists _; iexact HS1
  iexact Hg

theorem Phi_last1 (c : Dev nD) : (dat1 V c).Φ (Fin.last cfg1.N) ⊢ Pipeline.ΦA spec1 c :=
  Phi_out1 V c _ (by rw [Fin.val_last]; have : cfg1.N = 50 := N_1; omega)

theorem Phi_first1 (c : Dev nD) : (dat1 V c).Φ 0 = Pipeline.ΦA spec1 c := rfl

end Cert.KernelIdeal.Hand

end
-- ==== Proof.KIRun.lean ====
/-
  The whole run of the kernel program: its @main is a stretch of host operations (the two reshapes and the mask's
  conversion), the first kernel region, a second stretch (the padding value broadcast and joined to the centers), the
  second kernel region, and a last stretch (the sum over the batch and the division). The contents of every buffer at
  each of the six boundaries are named by a fold from the launch memory: a stretch applies its operations, a region
  puts its arrays at what its write-backs leave and keeps every other buffer. Each region is a segment whose proof
  data are the region's, entered from the buffers at the boundary before it and left at the boundary after it; the
  library's launch theorem for a list of segments then gives: every weakly fair execution terminates, and every buffer
  ends at the last boundary's contents.
-/
import proofs.«149737_j80418967650489_1_alg».proof.Proof.Gen.KernelIdeal.Launch
import proofs.«149737_j80418967650489_1_alg».proof.Proof.Gen.KernelIdeal.Skeleton
import proofs.«149737_j80418967650489_1_alg».proof.Proof.Gen.KernelIdeal.Points
import proofs.«149737_j80418967650489_1_alg».proof.Proof.KIRegion0
import proofs.«149737_j80418967650489_1_alg».proof.Proof.KIRegion1
import proofs.«149737_j80418967650489_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first host stretch (the first region's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the first region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the second region's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At the second region's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the last host stretch: the contents the run ends at. -/
abbrev B5 : Dev nD → Valuation τ sig (Elt F) := fun c => StableHlo.after hostOps2 (B4 m ρ c)

/-! ## The proof data family and the thread state -/

abbrev adm : (p : Fin 2) → (pcfgs (F := F) p).Adm := fun p => (cfgs p).toPCfg_adm
/-- Every region's proof data, each at its region's entry contents — a literal match on the region's number. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (B5 m ρ c) ∗ ∃ r, prngReg c r)

/-! ## The regions as segments -/

set_option backward.isDefEq.respectTransparency.types false in
/-- THE FIRST REGION over the thread state: entered from every unscoped buffer at `B1`, left at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `B3`, left at `B4`; its
    invariant starts as the class's and, after the last point, gives the class's back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_last1 (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => (show iprop(StableHlo.held (c : Thread nD τ) (Pipeline.ucRefs τ sig) (B5 m ρ c) ∗ R c)
          ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

end Cert.KernelIdeal.Hand

end
-- ==== Proof.KIFrame.lean ====
/-
  The frame of the kernel program, read off its run: no host operation writes an argument array and no region may
  change one (a region reads it through an input window, whose array the write-backs never touch, or passes it by),
  so each argument's buffer at the last boundary walks back, boundary by boundary, to the launch memory.
-/
import proofs.«149737_j80418967650489_1_alg».proof.Proof.Gen.KernelIdeal.Launch
import proofs.«149737_j80418967650489_1_alg».proof.Proof.Gen.KernelIdeal.Skeleton
import proofs.«149737_j80418967650489_1_alg».proof.Proof.Gen.KernelIdeal.Points
import proofs.«149737_j80418967650489_1_alg».proof.Proof.KIRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := StableHlo.after_of_writes_sub hostOps2 _ hostOps2_writes (by decide)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl

theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := StableHlo.after_of_writes_sub hostOps2 _ hostOps2_writes (by decide)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := (B2_arr m ρ c 2).trans (((dat0 (E1 m ρ) c).arrAt_in 2 rfl _).trans (A_eq0 (E1 m ρ) c 2))
    _ = B0 m ρ c (Proc.devRef .tc main_arg1) := StableHlo.after_of_writes_sub hostOps0 _ hostOps0_writes (by decide)
    _ = m ((c : Thread nD τ).loc main_arg1) := rfl

theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := StableHlo.after_of_writes_sub hostOps2 _ hostOps2_writes (by decide)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl

/-- THE FRAME, at any `F`: every weakly fair execution of @main terminates, nothing faulting, and the three argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c)⟩) (run_all m ρ)

end Cert.KernelIdeal.Hand

end
-- ==== Proof.KIPieces.lean ====
/-
  What the found pieces are: in every case each scratch buffer ends with one whole-buffer store whose payload is the
  body's update of what it read — the running minima `k1_pay5`, the running sums `k1_pay6`, from the inputs' blocks
  and the buffer's previous contents (at the first point: the reset values `k1_pay2`, `k1_pay3` stored just before) —
  and at the last point the output's buffer ends with `k1_pay1` of the two updated scratch buffers. The first
  region's output is `k0_pay1` of its three input blocks.
-/
import proofs.«149737_j80418967650489_1_alg».proof.Proof.Gen.KernelIdeal.Launch
import proofs.«149737_j80418967650489_1_alg».proof.Proof.Gen.KernelIdeal.Skeleton
import proofs.«149737_j80418967650489_1_alg».proof.Proof.Gen.KernelIdeal.Points
import proofs.«149737_j80418967650489_1_alg».proof.Proof.KIRegion0
import proofs.«149737_j80418967650489_1_alg».proof.Proof.KIRegion1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl

/-- The first region's output buffer holds the padding value of its three input blocks. -/
theorem out0_3_eq (x0 : Vec F S4x76800 .f32) (x1 : Vec F S4x76800 .f32) (x2 : Vec F S4x256 .f32) :
    out0_3 x0 x1 x2 = k0_pay1 x0 x1 x2 := by
  unfold out0_3
  rw [View.canon_unit_zero (S := S1x1) hz2]
  simp only [View.ld_unit_zero (S := S4x76800) hz2, View.ld_unit_zero (S := S4x256) hz2]

section Cases
variable (c : Dev nD) (i : grid1.Coords)
    (arg1 : Memref sig .tc .vmem S4x257 .f32) (harg1 : arg1.IsWhole) (arg2 : Memref sig .tc .vmem S4x1536 .f32) (harg2 : arg2.IsWhole)
    (arg3 : Memref sig .tc .vmem S4x1536 .f32) (harg3 : arg3.IsWhole) (arg4 : Memref sig .tc .vmem S1x1 .f32) (harg4 : arg4.IsWhole)
    (arg5 : Memref sig .tc .vmem S4x1 .f32) (harg5 : arg5.IsWhole) (arg6 : Memref sig .tc .vmem S4x257 .f32) (harg6 : arg6.IsWhole)
    (arg7 : Memref sig .tc .vmem S4x1 .f32) (harg7 : arg7.IsWhole)

theorem sout1_B_0_eq (hc0 : ¬cond1_0 i) (hc1 : ¬cond1_1 i) (x0 : Vec F S4x257 .f32) (x1 : Vec F S4x1536 .f32) (x2 : Vec F S4x1536 .f32) (x3 : Vec F S1x1 .f32) (xs0 : Vec F S4x257 .f32) (xs1 : Vec F S4x1 .f32) :
    sout1_B_0 c i arg1 harg1 arg2 harg2 arg3 harg3 arg4 harg4 arg5 harg5 arg6 harg6 arg7 harg7 hc0 hc1 x0 x1 x2 x3 xs0 xs1 = k1_pay5 x3 x1 x2 x0 xs0 := by
  unfold sout1_B_0
  rw [View.read_writes_eq_canon _ _ _ (scover1_B_0 c i arg1 harg1 arg2 harg2 arg3 harg3 arg4 harg4 arg5 harg5 arg6 harg6 arg7 harg7 hc0 hc1 x0 x1 x2 x3 xs0 xs1)]
  unfold kernelRun1_B
  dsimp only
  sl_unfold_run_names
  simp only [View.canon_cons_unit_zero (S := S4x257) hz2, View.canon_cons_unit_zero (S := S4x1) hz2, View.canon_unit_zero (S := S4x257) hz2, View.canon_unit_zero (S := S4x1) hz2,
    View.readCov_unit_zero (S := S4x257) _ hz2, View.readCov_unit_zero (S := S4x1) _ hz2, View.readAt_eq_ld, Memref.IsWhole.read_unread,
    View.ld_unit_zero (S := S4x257) hz2, View.ld_unit_zero (S := S4x1536) hz2, View.ld_unit_zero (S := S1x1) hz2, View.ld_unit_zero (S := S4x1) hz2]

theorem sout1_B_1_eq (hc0 : ¬cond1_0 i) (hc1 : ¬cond1_1 i) (x0 : Vec F S4x257 .f32) (x1 : Vec F S4x1536 .f32) (x2 : Vec F S4x1536 .f32) (x3 : Vec F S1x1 .f32) (xs0 : Vec F S4x257 .f32) (xs1 : Vec F S4x1 .f32) :
    sout1_B_1 c i arg1 harg1 arg2 harg2 arg3 harg3 arg4 harg4 arg5 harg5 arg6 harg6 arg7 harg7 hc0 hc1 x0 x1 x2 x3 xs0 xs1 = k1_pay6 x3 x1 x2 x0 xs1 := by
  unfold sout1_B_1
  rw [View.read_writes_eq_canon _ _ _ (scover1_B_1 c i arg1 harg1 arg2 harg2 arg3 harg3 arg4 harg4 arg5 harg5 arg6 harg6 arg7 harg7 hc0 hc1 x0 x1 x2 x3 xs0 xs1)]
  unfold kernelRun1_B
  dsimp only
  sl_unfold_run_names
  simp only [View.canon_cons_unit_zero (S := S4x257) hz2, View.canon_cons_unit_zero (S := S4x1) hz2, View.canon_unit_zero (S := S4x257) hz2, View.canon_unit_zero (S := S4x1) hz2,
    View.readCov_unit_zero (S := S4x257) _ hz2, View.readCov_unit_zero (S := S4x1) _ hz2, View.readAt_eq_ld, Memref.IsWhole.read_unread,
    View.ld_unit_zero (S := S4x257) hz2, View.ld_unit_zero (S := S4x1536) hz2, View.ld_unit_zero (S := S1x1) hz2, View.ld_unit_zero (S := S4x1) hz2]

theorem sout1_C_0_eq (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) :
    sout1_C_0 c i arg1 harg1 arg2 harg2 arg3 harg3 arg4 harg4 arg5 harg5 arg6 harg6 arg7 harg7 hc0 hc1 x0 x1 x2 x3 xs0 xs1 = k1_pay5 x3 x1 x2 x0 xs0 := by
  unfold sout1_C_0
  rw [View.read_writes_eq_canon _ _ _ (scover1_C_0 c i arg1 harg1 arg2 harg2 arg3 harg3 arg4 harg4 arg5 harg5 arg6 harg6 arg7 harg7 hc0 hc1 x0 x1 x2 x3 xs0 xs1)]
  unfold kernelRun1_C
  dsimp only
  sl_unfold_run_names
  simp only [View.canon_cons_unit_zero (S := S4x257) hz2, View.canon_cons_unit_zero (S := S4x1) hz2, View.canon_unit_zero (S := S4x257) hz2, View.canon_unit_zero (S := S4x1) hz2,
    View.readCov_unit_zero (S := S4x257) _ hz2, View.readCov_unit_zero (S := S4x1) _ hz2, View.readAt_eq_ld, Memref.IsWhole.read_unread,
    View.ld_unit_zero (S := S4x257) hz2, View.ld_unit_zero (S := S4x1536) hz2, View.ld_unit_zero (S := S1x1) hz2, View.ld_unit_zero (S := S4x1) hz2]

theorem sout1_C_1_eq (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) :
    sout1_C_1 c i arg1 harg1 arg2 harg2 arg3 harg3 arg4 harg4 arg5 harg5 arg6 harg6 arg7 harg7 hc0 hc1 x0 x1 x2 x3 xs0 xs1 = k1_pay6 x3 x1 x2 x0 xs1 := by
  unfold sout1_C_1
  rw [View.read_writes_eq_canon _ _ _ (scover1_C_1 c i arg1 harg1 arg2 harg2 arg3 harg3 arg4 harg4 arg5 harg5 arg6 harg6 arg7 harg7 hc0 hc1 x0 x1 x2 x3 xs0 xs1)]
  unfold kernelRun1_C
  dsimp only
  sl_unfold_run_names
  simp only [View.canon_cons_unit_zero (S := S4x257) hz2, View.canon_cons_unit_zero (S := S4x1) hz2, View.canon_unit_zero (S := S4x257) hz2, View.canon_unit_zero (S := S4x1) hz2,
    View.readCov_unit_zero (S := S4x257) _ hz2, View.readCov_unit_zero (S := S4x1) _ hz2, View.readAt_eq_ld, Memref.IsWhole.read_unread,
    View.ld_unit_zero (S := S4x257) hz2, View.ld_unit_zero (S := S4x1536) hz2, View.ld_unit_zero (S := S1x1) hz2, View.ld_unit_zero (S := S4x1) hz2]

theorem out1_C_4_eq (hc0 : ¬cond1_0 i) (hc1 : cond1_1 i) (x0 : Vec F S4x257 .f32) (x1 : Vec F S4x1536 .f32) (x2 : Vec F S4x1536 .f32) (x3 : Vec F S1x1 .f32) (xs0 : Vec F S4x257 .f32) (xs1 : Vec F S4x1 .f32) :
    out1_C_4 c i arg1 harg1 arg2 harg2 arg3 harg3 arg4 harg4 arg5 harg5 arg6 harg6 arg7 harg7 hc0 hc1 x0 x1 x2 x3 xs0 xs1 = k1_pay1 (k1_pay5 x3 x1 x2 x0 xs0) (k1_pay6 x3 x1 x2 x0 xs1) := by
  unfold out1_C_4
  rw [View.read_writes_eq_canon _ _ _ (cover1_C_4 c i arg1 harg1 arg2 harg2 arg3 harg3 arg4 harg4 arg5 harg5 arg6 harg6 arg7 harg7 hc0 hc1 x0 x1 x2 x3 xs0 xs1)]
  unfold kernelRun1_C
  dsimp only
  sl_unfold_run_names
  simp only [View.canon_cons_unit_zero (S := S4x257) hz2, View.canon_cons_unit_zero (S := S4x1) hz2, View.canon_unit_zero (S := S4x257) hz2, View.canon_unit_zero (S := S4x1) hz2,
    View.readCov_unit_zero (S := S4x257) _ hz2, View.readCov_unit_zero (S := S4x1) _ hz2, View.readAt_eq_ld, Memref.IsWhole.read_unread,
    View.ld_unit_zero (S := S4x257) hz2, View.ld_unit_zero (S := S4x1536) hz2, View.ld_unit_zero (S := S1x1) hz2, View.ld_unit_zero (S := S4x1) hz2]

theorem sout1_A_0_eq (hc0 : cond1_0 i) (hc1 : ¬cond1_1 i) (x0 : Vec F S4x257 .f32) (x1 : Vec F S4x1536 .f32) (x2 : Vec F S4x1536 .f32) (x3 : Vec F S1x1 .f32) :
    sout1_A_0 c i arg1 harg1 arg2 harg2 arg3 harg3 arg4 harg4 arg5 harg5 arg6 harg6 arg7 harg7 hc0 hc1 x0 x1 x2 x3 = k1_pay5 x3 x1 x2 x0 k1_pay2 := by
  unfold sout1_A_0
  rw [View.read_writes_eq_canon _ _ _ (scover1_A_0 c i arg1 harg1 arg2 harg2 arg3 harg3 arg4 harg4 arg5 harg5 arg6 harg6 arg7 harg7 hc0 hc1 x0 x1 x2 x3)]
  unfold kernelRun1_A
  dsimp only
  sl_unfold_run_names
  simp only [View.canon_cons_unit_zero (S := S4x257) hz2, View.canon_cons_unit_zero (S := S4x1) hz2, View.canon_unit_zero (S := S4x257) hz2, View.canon_unit_zero (S := S4x1) hz2,
    View.readCov_unit_zero (S := S4x257) _ hz2, View.readCov_unit_zero (S := S4x1) _ hz2, View.readAt_eq_ld, Memref.IsWhole.read_unread,
    View.ld_unit_zero (S := S4x257) hz2, View.ld_unit_zero (S := S4x1536) hz2, View.ld_unit_zero (S := S1x1) hz2, View.ld_unit_zero (S := S4x1) hz2]

theorem sout1_A_1_eq (hc0 : cond1_0 i) (hc1 : ¬cond1_1 i) (x0 : Vec F S4x257 .f32) (x1 : Vec F S4x1536 .f32) (x2 : Vec F S4x1536 .f32) (x3 : Vec F S1x1 .f32) :
    sout1_A_1 c i arg1 harg1 arg2 harg2 arg3 harg3 arg4 harg4 arg5 harg5 arg6 harg6 arg7 harg7 hc0 hc1 x0 x1 x2 x3 = k1_pay6 x3 x1 x2 x0 k1_pay3 := by
  unfold sout1_A_1
  rw [View.read_writes_eq_canon _ _ _ (scover1_A_1 c i arg1 harg1 arg2 harg2 arg3 harg3 arg4 harg4 arg5 harg5 arg6 harg6 arg7 harg7 hc0 hc1 x0 x1 x2 x3)]
  unfold kernelRun1_A
  dsimp only
  sl_unfold_run_names
  simp only [View.canon_cons_unit_zero (S := S4x257) hz2, View.canon_cons_unit_zero (S := S4x1) hz2, View.canon_unit_zero (S := S4x257) hz2, View.canon_unit_zero (S := S4x1) hz2,
    View.readCov_unit_zero (S := S4x257) _ hz2, View.readCov_unit_zero (S := S4x1) _ hz2, View.readAt_eq_ld, Memref.IsWhole.read_unread,
    View.ld_unit_zero (S := S4x257) hz2, View.ld_unit_zero (S := S4x1536) hz2, View.ld_unit_zero (S := S1x1) hz2, View.ld_unit_zero (S := S4x1) hz2]

end Cases

end Cert.KernelIdeal.Hand

end
-- ==== Proof.KIAccum.lean ====
/-
  The accumulation, in the body's own terms: after the body at point `t` the running minima are the body's update
  `k1_pay5` of the point's four input blocks and of what the buffer held before the point — the reset value at the
  first point, what the point before left otherwise — and the running sums likewise `k1_pay6`; and at the last point
  the output's buffer holds `k1_pay1` of the two scratch buffers as that point leaves them.
-/
import proofs.«149737_j80418967650489_1_alg».proof.Proof.Gen.KernelIdeal.Launch
import proofs.«149737_j80418967650489_1_alg».proof.Proof.Gen.KernelIdeal.Skeleton
import proofs.«149737_j80418967650489_1_alg».proof.Proof.Gen.KernelIdeal.Points
import proofs.«149737_j80418967650489_1_alg».proof.Proof.KIPieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the running minima hold when point `t`'s update reads them. -/
def prev0 (c : Dev nD) (t : Fin cfg1.N) : Vec F S4x257 .f32 :=
  if h : t.val = 0 then k1_pay2 else (outsAt1 V c (t.val - 1) (Nat.lt_of_le_of_lt (Nat.sub_le _ _) t.isLt)).2.1
/-- What the running sums hold when point `t`'s update reads them. -/
def prev1 (c : Dev nD) (t : Fin cfg1.N) : Vec F S4x1 .f32 :=
  if h : t.val = 0 then k1_pay3 else (outsAt1 V c (t.val - 1) (Nat.lt_of_le_of_lt (Nat.sub_le _ _) t.isLt)).2.2

theorem scr0_step (c : Dev nD) (t : Fin cfg1.N) :
    (outsAt1 V c t.val t.isLt).2.1 = k1_pay5 (iblk1 V c 3 t) (iblk1 V c 1 t) (iblk1 V c 2 t) (iblk1 V c 0 t) (prev0 V c t) := by
  have hN : t.val < 50 := lt_of_lt_of_eq t.isLt (show cfg1.N = 50 from N_1)
  by_cases h0 : t.val % 50 = 0
  · have h1 : ¬t.val % 50 = 49 := by omega
    have hz : t.val = 0 := by omega
    rw [outsAt1_A V c t h0 h1]; dsimp only
    rw [sout1_A_0_eq]; unfold prev0; rw [dif_pos hz]
  · have hz : t.val ≠ 0 := by omega
    by_cases h1 : t.val % 50 = 49
    · rw [outsAt1_C V c t h0 h1]; dsimp only
      rw [sout1_C_0_eq]; unfold prev0; rw [dif_neg hz]
    · rw [outsAt1_B V c t h0 h1]; dsimp only
      rw [sout1_B_0_eq]; unfold prev0; rw [dif_neg hz]

theorem scr1_step (c : Dev nD) (t : Fin cfg1.N) :
    (outsAt1 V c t.val t.isLt).2.2 = k1_pay6 (iblk1 V c 3 t) (iblk1 V c 1 t) (iblk1 V c 2 t) (iblk1 V c 0 t) (prev1 V c t) := by
  have hN : t.val < 50 := lt_of_lt_of_eq t.isLt (show cfg1.N = 50 from N_1)
  by_cases h0 : t.val % 50 = 0
  · have h1 : ¬t.val % 50 = 49 := by omega
    have hz : t.val = 0 := by omega
    rw [outsAt1_A V c t h0 h1]; dsimp only
    rw [sout1_A_1_eq]; unfold prev1; rw [dif_pos hz]
  · have hz : t.val ≠ 0 := by omega
    by_cases h1 : t.val % 50 = 49
    · rw [outsAt1_C V c t h0 h1]; dsimp only
      rw [sout1_C_1_eq]; unfold prev1; rw [dif_neg hz]
    · rw [outsAt1_B V c t h0 h1]; dsimp only
      rw [sout1_B_1_eq]; unfold prev1; rw [dif_neg hz]

theorem out_last (c : Dev nD) (t : Fin cfg1.N) (h1 : t.val % 50 = 49) :
    (outsAt1 V c t.val t.isLt).1 = k1_pay1 (outsAt1 V c t.val t.isLt).2.1 (outsAt1 V c t.val t.isLt).2.2 := by
  have hN : t.val < 50 := lt_of_lt_of_eq t.isLt (show cfg1.N = 50 from N_1)
  have h0 : ¬t.val % 50 = 0 := by omega
  rw [outsAt1_C V c t h0 h1]; dsimp only
  rw [out1_C_4_eq, sout1_C_0_eq, sout1_C_1_eq]

end Cert.KernelIdeal.Hand

end
-- ==== Proof.KIOut.lean ====
/-
  What the second region leaves in its output array, and what the program returns. The output window's one block is
  the whole [4, 1] array and is written back at the last point only, so after the region the array holds what the
  last point left in the window's buffer. The last host stretch then sums that column from zero and divides by four.
-/
import proofs.«149737_j80418967650489_1_alg».proof.Proof.Gen.KernelIdeal.Launch
import proofs.«149737_j80418967650489_1_alg».proof.Proof.Gen.KernelIdeal.Skeleton
import proofs.«149737_j80418967650489_1_alg».proof.Proof.Gen.KernelIdeal.Points
import proofs.«149737_j80418967650489_1_alg».proof.Proof.KIRun
import proofs.«149737_j80418967650489_1_alg».proof.Proof.KIAccum
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The last grid point. -/
def t49 : Fin cfg1.N := ⟨49, by rw [show cfg1.N = 50 from N_1]; decide⟩

/-- The one write-back, at the last point, writes what that point left: block (0, 0) of the [4, 1] array read through
    zero offsets is the array. -/
theorem flushed1_eq (c : Dev nD) (t : Fin cfg1.N) (hf : (cfg1.win 4).flush t = true) :
    (dat1 V c).flushed 4 t = ((cfg1.win 4).blk t).view.read (Elt F) ((outsAt1 V c t49.val t49.isLt).1) := by
  have hN : cfg1.N = 50 := N_1
  have h1 : t.val = 49 := by have := (flush1_4 t).mp hf; have := t.isLt; omega
  obtain rfl : t = t49 := Fin.ext h1
  show (cfg1.win 4).cut (grid1.coords t49) ((dat1 V c).after 4 t49) = _
  rw [after1_4]
  have hz' : (fun a => win1_4.index t49 a * main_v6.ty.shape.size a) = fun _ => 0 := funext fun a => by fin_cases a <;> decide
  exact (Memref.read_access_unit_zero (Elt F) main_v6 hz' (fun a => by rw [congrFun hz' a]; simp) _).symm

/-- So the output array ends holding what the last point left. -/
theorem final1 (c : Dev nD) : (dat1 V c).arrAt 4 cfg1.N = (outsAt1 V c t49.val t49.isLt).1 :=
  (dat1 V c).arrAt_eq_of_cover 4 _ (flushed1_eq V c) fun i =>
    ⟨t49, (flush1_4 t49).mpr rfl, by
      show i ∈ ((View.whole main_v6).slice (win1_4.rect t49)).set
      rw [View.set_slice_whole, Rect.mem_set_unit]
      intro a
      have h0 : (i 0 : Nat) < 4 := (i 0).isLt
      have h1 : (i 1 : Nat) < 1 := (i 1).isLt
      match a with
      | ⟨0, _⟩ => show win1_4.index t49 0 * win1_4.size 0 ≤ (i 0 : Nat) ∧ (i 0 : Nat) < win1_4.index t49 0 * win1_4.size 0 + win1_4.xsize (grid1.coords t49) 0
                  rw [show win1_4.index t49 0 * win1_4.size 0 = 0 from by decide +kernel, show win1_4.xsize (grid1.coords t49) 0 = 4 from by decide +kernel]; omega
      | ⟨1, _⟩ => show win1_4.index t49 1 * win1_4.size 1 ≤ (i 1 : Nat) ∧ (i 1 : Nat) < win1_4.index t49 1 * win1_4.size 1 + win1_4.xsize (grid1.coords t49) 1
                  rw [show win1_4.index t49 1 * win1_4.size 1 = 0 from by decide +kernel, show win1_4.xsize (grid1.coords t49) 1 = 1 from by decide +kernel]; omega⟩

variable (m : (ℓ : Loc nD τ sig) → Buf (Elt F) ℓ) (ρ : Dev nD → PrngReg)

/-- The per-batch column at the second region's exit: the last point's output, from the two scratch buffers. -/
theorem B4_main_v6 (c : Dev nD) :
    B4 m ρ c (Proc.devRef .tc main_v6)
      = k1_pay1 (outsAt1 (E3 m ρ) c t49.val t49.isLt).2.1 (outsAt1 (E3 m ρ) c t49.val t49.isLt).2.2 :=
  (B4_arr m ρ c 4).trans ((final1 (E3 m ρ) c).trans (out_last (E3 m ρ) c t49 rfl))

/-- The program's result at the last boundary: the column summed from zero, divided by four. -/
theorem B5_main_v8 (c : Dev nD) :
    B5 m ρ c (Proc.devRef .tc main_v8)
      = Host.divf (Host.reduceAdd (B4 m ρ c (Proc.devRef .tc main_v6)) (constant (F := F) S_ .f32 0x00000000#32) reducesTo_S4x1_S_d0_1 h_S_)
          (constant (F := F) S_ .f32 0x40800000#32) := by
  show StableHlo.after hostOps2 (B4 m ρ c) (Proc.devRef .tc main_v8) = _
  after_results

end Cert.KernelIdeal.Hand

end
-- ==== Proof.KIBlocks.lean ====
/-
  Each input window's block at a grid point, read off its array: the padded centers and the padding value are one
  whole-array block at every point; the target's and the mask's block at point `t` is columns `1536 t … 1536 t + 1535`
  of the flattened array (a block's coordinate is the block index times the block extent plus the coordinate inside).
-/
import proofs.«149737_j80418967650489_1_alg».proof.Proof.Gen.KernelIdeal.Launch
import proofs.«149737_j80418967650489_1_alg».proof.Proof.Gen.KernelIdeal.Skeleton
import proofs.«149737_j80418967650489_1_alg».proof.Proof.Gen.KernelIdeal.Points
import proofs.«149737_j80418967650489_1_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The index maps over the grid, decided once. -/
theorem idx1_0 : ∀ t : Fin cfg1.N, win1_0.index t 0 = 0 ∧ win1_0.index t 1 = 0 :=
  (by decide +kernel : ∀ t : Fin grid1.N, win1_0.index t 0 = 0 ∧ win1_0.index t 1 = 0)
theorem idx1_1 : ∀ t : Fin cfg1.N, win1_1.index t 0 = 0 ∧ win1_1.index t 1 = t.val :=
  (by decide +kernel : ∀ t : Fin grid1.N, win1_1.index t 0 = 0 ∧ win1_1.index t 1 = t.val)
theorem idx1_2 : ∀ t : Fin cfg1.N, win1_2.index t 0 = 0 ∧ win1_2.index t 1 = t.val :=
  (by decide +kernel : ∀ t : Fin grid1.N, win1_2.index t 0 = 0 ∧ win1_2.index t 1 = t.val)
theorem idx1_3 : ∀ t : Fin cfg1.N, win1_3.index t 0 = 0 ∧ win1_3.index t 1 = 0 :=
  (by decide +kernel : ∀ t : Fin grid1.N, win1_3.index t 0 = 0 ∧ win1_3.index t 1 = 0)

theorem iblk1_0_apply (c : Dev nD) (t : Fin cfg1.N) (x : S4x257.Idx) (k : S4x257.Idx)
    (hk0 : (k 0).val = (x 0).val) (hk1 : (k 1).val = (x 1).val) :
    (iblk1 V c 0 t : Vec F S4x257 .f32) x = (V c main_v5 : S4x257.Idx → Elt F .f32) k := by
  have hi := idx1_0 t
  unfold iblk1
  rw [View.read_apply]
  show V c main_v5 _ = V c main_v5 _
  congr 1
  funext a
  apply Fin.ext
  match a with
  | ⟨0, _⟩ => show win1_0.index t 0 * 4 + 1 * (x 0).val = (k 0).val; rw [hi.1, hk0]; omega
  | ⟨1, _⟩ => show win1_0.index t 1 * 257 + 1 * (x 1).val = (k 1).val; rw [hi.2, hk1]; omega

theorem iblk1_1_apply (c : Dev nD) (t : Fin cfg1.N) (x : S4x1536.Idx) (k : S4x76800.Idx)
    (hk0 : (k 0).val = (x 0).val) (hk1 : (k 1).val = t.val * 1536 + (x 1).val) :
    (iblk1 V c 1 t : Vec F S4x1536 .f32) x = (V c main_v0 : S4x76800.Idx → Elt F .f32) k := by
  have hi := idx1_1 t
  unfold iblk1
  rw [View.read_apply]
  show V c main_v0 _ = V c main_v0 _
  congr 1
  funext a
  apply Fin.ext
  match a with
  | ⟨0, _⟩ => show win1_1.index t 0 * 4 + 1 * (x 0).val = (k 0).val; rw [hi.1, hk0]; omega
  | ⟨1, _⟩ => show win1_1.index t 1 * 1536 + 1 * (x 1).val = (k 1).val; rw [hi.2, hk1]; omega

theorem iblk1_2_apply (c : Dev nD) (t : Fin cfg1.N) (x : S4x1536.Idx) (k : S4x76800.Idx)
    (hk0 : (k 0).val = (x 0).val) (hk1 : (k 1).val = t.val * 1536 + (x 1).val) :
    (iblk1 V c 2 t : Vec F S4x1536 .f32) x = (V c main_v2 : S4x76800.Idx → Elt F .f32) k := by
  have hi := idx1_2 t
  unfold iblk1
  rw [View.read_apply]
  show V c main_v2 _ = V c main_v2 _
  congr 1
  funext a
  apply Fin.ext
  match a with
  | ⟨0, _⟩ => show win1_2.index t 0 * 4 + 1 * (x 0).val = (k 0).val; rw [hi.1, hk0]; omega
  | ⟨1, _⟩ => show win1_2.index t 1 * 1536 + 1 * (x 1).val = (k 1).val; rw [hi.2, hk1]; omega

theorem iblk1_3_apply (c : Dev nD) (t : Fin cfg1.N) (x : S1x1.Idx) (k : S1x1.Idx)
    (hk0 : (k 0).val = (x 0).val) (hk1 : (k 1).val = (x 1).val) :
    (iblk1 V c 3 t : Vec F S1x1 .f32) x = (V c main_v3 : S1x1.Idx → Elt F .f32) k := by
  have hi := idx1_3 t
  unfold iblk1
  rw [View.read_apply]
  show V c main_v3 _ = V c main_v3 _
  congr 1
  funext a
  apply Fin.ext
  match a with
  | ⟨0, _⟩ => show win1_3.index t 0 * 1 + 1 * (x 0).val = (k 0).val; rw [hi.1, hk0]; omega
  | ⟨1, _⟩ => show win1_3.index t 1 * 1 + 1 * (x 1).val = (k 1).val; rw [hi.2, hk1]; omega

end Cert.KernelIdeal.Hand

end
-- ==== Proof.Spec.lean ====
/-
  The masked two-sided chamfer loss as ONE function of the three argument arrays, on the extended reals.

  Arguments: the target f32[4, 240, 320], the bin centres f32[4, 256], the mask i1[4, 240, 320]. A batch's
  76800 pixels are numbered row-major, pixel n at row n / 320 and column n % 320. With T(b, n) the target,
  K(b, n) the mask bit and C(b, p) the centres:
    maxT = sup over (b, n) of (T(b, n) where K(b, n) is set, else -inf),   maxC = sup over (b, p) of C(b, p),
    pad  = (max maxT maxC + (max maxT maxC - min maxT maxC)) + 1,
    T'(b, n) = T(b, n) where K(b, n) is set, else pad,   C'(b, p) = C(b, p) for p < 256 and pad at p = 256,
    perBatch(b) = (sum over p < 257 of inf over n of (C'(b, p) - T'(b, n))^2)
                + (sum over n of inf over p < 257 of (C'(b, p) - T'(b, n))^2),
    result = (0 + sum over b of perBatch(b)) / 4.
  The words for 1 and 4 are kept as patterns; pad may be an infinity (an all-false mask gives maxT = -inf), and
  nothing here assumes it finite.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The target's and the mask's shape. -/
abbrev SA : Shape := ⟨3, ![4, 240, 320]⟩
/-- The bin centres' shape. -/
abbrev SC : Shape := ⟨2, ![4, 256]⟩

/-- Pixel n of batch b as an index of the [4, 240, 320] arrays: row n / 320, column n % 320. -/
abbrev idxA (b : Fin 4) (n : Fin 76800) : SA.Idx :=
  ix3 b (⟨n.val / 320, by have := n.isLt; omega⟩ : Fin 240) (⟨n.val % 320, by have := n.isLt; omega⟩ : Fin 320)
/-- Centre p of batch b as an index of the [4, 256] array. -/
abbrev idxC (b : Fin 4) (p : Fin 256) : SC.Idx := ix2 b p

/-- The squared difference of two extended reals. -/
def sq (a b : EReal) : EReal := (a - b) * (a - b)

/-- The target at pixel n of batch b. -/
def tgt (a0 : SA.Idx → EReal) (b : Fin 4) (n : Fin 76800) : EReal := a0 (idxA b n)
/-- The mask bit at pixel n of batch b. -/
def msk (a2 : SA.Idx → BitVec 1) (b : Fin 4) (n : Fin 76800) : BitVec 1 := a2 (idxA b n)
/-- Centre p of batch b. -/
def ctr (a1 : SC.Idx → EReal) (b : Fin 4) (p : Fin 256) : EReal := a1 (idxC b p)

/-- The largest target value under the mask (-inf when the mask is empty). -/
def maxT (a0 : SA.Idx → EReal) (a2 : SA.Idx → BitVec 1) : EReal :=
  ⨆ b : Fin 4, ⨆ n : Fin 76800, if msk a2 b n = 1#1 then tgt a0 b n else ⊥
/-- The largest centre. -/
def maxC (a1 : SC.Idx → EReal) : EReal := ⨆ b : Fin 4, ⨆ p : Fin 256, ctr a1 b p

/-- The padding value: beyond the larger maximum by the two maxima's distance, plus one. -/
def pad (a0 : SA.Idx → EReal) (a1 : SC.Idx → EReal) (a2 : SA.Idx → BitVec 1) : EReal :=
  (max (maxT a0 a2) (maxC a1) + (max (maxT a0 a2) (maxC a1) - min (maxT a0 a2) (maxC a1)))
    + Ideal.ofBits .f32 0x3F800000#32

/-- The target with every masked-out pixel replaced by the padding value. -/
def tgtP (a0 : SA.Idx → EReal) (a1 : SC.Idx → EReal) (a2 : SA.Idx → BitVec 1) (b : Fin 4) (n : Fin 76800) : EReal :=
  if msk a2 b n = 1#1 then tgt a0 b n else pad a0 a1 a2
/-- The centres with one more column, holding the padding value. -/
def ctrP (a0 : SA.Idx → EReal) (a1 : SC.Idx → EReal) (a2 : SA.Idx → BitVec 1) (b : Fin 4) (p : Fin 257) : EReal :=
  if h : p.val < 256 then ctr a1 b ⟨p.val, h⟩ else pad a0 a1 a2

/-- One batch's two-sided chamfer sum: each centre's squared distance to its nearest pixel, summed, plus each
    pixel's squared distance to its nearest centre, summed. -/
def perBatch (a0 : SA.Idx → EReal) (a1 : SC.Idx → EReal) (a2 : SA.Idx → BitVec 1) (b : Fin 4) : EReal :=
  (∑ p : Fin 257, ⨅ n : Fin 76800, sq (ctrP a0 a1 a2 b p) (tgtP a0 a1 a2 b n))
    + (∑ n : Fin 76800, ⨅ p : Fin 257, sq (ctrP a0 a1 a2 b p) (tgtP a0 a1 a2 b n))

/-- The loss: the mean of the four batches' sums (a sum from zero, divided by the word for 4). -/
def result (a0 : SA.Idx → EReal) (a1 : SC.Idx → EReal) (a2 : SA.Idx → BitVec 1) : EReal :=
  Ideal.div (0 + ∑ b : Fin 4, perBatch a0 a1 a2 b) (Ideal.ofBits .f32 0x40800000#32)

/-- The pattern of f32's -inf denotes the bottom of the extended reals. -/
theorem ofBits_neg_inf : Ideal.ofBits .f32 0xFF800000#32 = ⊥ := by simp [Ideal.ofBits, Ideal.ieee]
/-- The pattern of f32's +inf denotes the top of the extended reals. -/
theorem ofBits_pos_inf : Ideal.ofBits .f32 0x7F800000#32 = ⊤ := by simp [Ideal.ofBits, Ideal.ieee]

end Cert.Spec

end
-- ==== Proof.SpecAlgebra.lean ====
/-
  The order and sum laws on the extended reals that join the two arrangements of the chamfer loss: the squared
  difference is symmetric; a fold of max (min) over a whole finite index set from a starting value is that value
  joined with the supremum (infimum) of the family; 76800 pixels are 50 tiles of 1536, so an infimum or a sum over
  the pixels is the one over the tiles of the one inside each tile; a running minimum (running sum) over the first
  N steps is the infimum (sum) of those steps; and a supremum over the indices of a [4, 240, 320] or a [4, 256]
  array is the iterated one over the batch and the flattened position. None of these needs a finite value: they
  hold at the infinities too.
-/
import proofs.«149737_j80418967650489_1_alg».proof.Proof.Spec

noncomputable section

open scoped BigOperators

namespace Cert.Spec

open Idealize.ShloMosaic Idealize.ShloMosaic.ValueIdx

/-! ## The squared difference is symmetric -/

/-- (a - b)^2 = (b - a)^2 on the extended reals: off the diagonal b - a = -(a - b) (the one failure of that law,
    a = b an infinity, is on the diagonal, where the two sides are the same term), and a product of two negations
    is the product. -/
theorem sq_comm (a b : EReal) : sq a b = sq b a := by
  unfold sq
  by_cases h : a = b
  · rw [h]
  · have e : b - a = -(a - b) := by
      rw [EReal.neg_sub (Classical.or_iff_not_imp_left.mpr fun ha hb => h ((not_not.mp ha).trans hb.symm))
        (Classical.or_iff_not_imp_left.mpr fun ha hb => h ((not_not.mp ha).trans hb.symm)), sub_eq_add_neg, add_comm]
    rw [e, neg_mul_neg]

/-! ## Folds of max and min over a whole finite index set -/

section Folds
variable {ι : Type*} [Fintype ι]

/-- A fold of max from a over a whole finite family is a joined with the family's supremum. -/
theorem fold_max_init (a : EReal) (f : ι → EReal) :
    (Finset.univ : Finset ι).fold max a f = max a (⨆ i, f i) := by
  classical
  rw [← Finset.sup_univ_eq_iSup]
  induction (Finset.univ : Finset ι) using Finset.induction_on with
  | empty => simp
  | insert i s hi ih => rw [Finset.fold_insert hi, ih, Finset.sup_insert]; exact max_left_comm _ _ _

/-- A fold of min from a over a whole finite family is a met with the family's infimum. -/
theorem fold_min_init (a : EReal) (f : ι → EReal) :
    (Finset.univ : Finset ι).fold min a f = min a (⨅ i, f i) := by
  classical
  rw [← Finset.inf_univ_eq_iInf]
  induction (Finset.univ : Finset ι) using Finset.induction_on with
  | empty => simp
  | insert i s hi ih => rw [Finset.fold_insert hi, ih, Finset.inf_insert]; exact min_left_comm _ _ _

/-- From the bottom the fold of max is the supremum. -/
theorem fold_max_bot (f : ι → EReal) : (Finset.univ : Finset ι).fold max ⊥ f = ⨆ i, f i := by
  rw [fold_max_init, max_eq_right bot_le]

/-- From the top the fold of min is the infimum. -/
theorem fold_min_top (f : ι → EReal) : (Finset.univ : Finset ι).fold min ⊤ f = ⨅ i, f i := by
  rw [fold_min_init, min_eq_right le_top]

end Folds

/-! ## 76800 pixels are 50 tiles of 1536 -/

/-- Pixel j * 1536 + k is position k of tile j: a bijection between (tile, position) pairs and pixels. -/
def tileEquiv : Fin 50 × Fin 1536 ≃ Fin 76800 where
  toFun q := ⟨q.1.val * 1536 + q.2.val, by have := q.1.isLt; have := q.2.isLt; omega⟩
  invFun n := (⟨n.val / 1536, by have := n.isLt; omega⟩, ⟨n.val % 1536, Nat.mod_lt _ (by decide)⟩)
  left_inv q := by
    have h1 := q.1.isLt
    have h2 := q.2.isLt
    refine Prod.ext (Fin.ext ?_) (Fin.ext ?_)
    · show (q.1.val * 1536 + q.2.val) / 1536 = q.1.val
      omega
    · show (q.1.val * 1536 + q.2.val) % 1536 = q.2.val
      omega
  right_inv n := Fin.ext (by
    show n.val / 1536 * 1536 + n.val % 1536 = n.val
    omega)

/-- An infimum over the pixels is the infimum over the tiles of the infimum inside each tile. -/
theorem iInf_tiles {α : Type*} [CompleteLattice α] (f : Fin 76800 → α) :
    ⨅ n, f n = ⨅ j : Fin 50, ⨅ k : Fin 1536,
      f ⟨j.val * 1536 + k.val, by have := j.isLt; have := k.isLt; omega⟩ :=
  (tileEquiv.iInf_comp (g := f)).symm.trans iInf_prod

/-- A supremum over the pixels likewise. -/
theorem iSup_tiles {α : Type*} [CompleteLattice α] (f : Fin 76800 → α) :
    ⨆ n, f n = ⨆ j : Fin 50, ⨆ k : Fin 1536,
      f ⟨j.val * 1536 + k.val, by have := j.isLt; have := k.isLt; omega⟩ :=
  (tileEquiv.iSup_comp (g := f)).symm.trans iSup_prod

/-- A sum over the pixels is the sum over the tiles of the sum inside each tile. -/
theorem sum_tiles {M : Type*} [AddCommMonoid M] (f : Fin 76800 → M) :
    ∑ n, f n = ∑ j : Fin 50, ∑ k : Fin 1536,
      f ⟨j.val * 1536 + k.val, by have := j.isLt; have := k.isLt; omega⟩ :=
  (Equiv.sum_comp tileEquiv f).symm.trans (Fintype.sum_prod_type _)

/-! ## A running minimum and a running sum -/

/-- The running minimum of g(0), g(1), … from the top: what a minimum accumulated step by step holds after n steps. -/
def minAcc (g : ℕ → EReal) : ℕ → EReal
  | 0 => ⊤
  | n + 1 => min (minAcc g n) (g n)

/-- The running sum of g(0), g(1), … from zero: what a sum accumulated step by step holds after n steps. -/
def sumAcc (g : ℕ → EReal) : ℕ → EReal
  | 0 => 0
  | n + 1 => sumAcc g n + g n

theorem minAcc_zero (g : ℕ → EReal) : minAcc g 0 = ⊤ := rfl
theorem minAcc_succ (g : ℕ → EReal) (n : ℕ) : minAcc g (n + 1) = min (minAcc g n) (g n) := rfl
theorem sumAcc_zero (g : ℕ → EReal) : sumAcc g 0 = 0 := rfl
theorem sumAcc_succ (g : ℕ → EReal) (n : ℕ) : sumAcc g (n + 1) = sumAcc g n + g n := rfl

/-- A value is below the running minimum after N steps exactly when it is below each of the N steps. -/
theorem le_minAcc_iff (g : ℕ → EReal) (N : ℕ) (x : EReal) : x ≤ minAcc g N ↔ ∀ j, j < N → x ≤ g j := by
  induction N with
  | zero => simp [minAcc]
  | succ n ih =>
    rw [minAcc_succ, le_min_iff, ih]
    constructor
    · rintro ⟨h1, h2⟩ j hj
      rcases Nat.lt_succ_iff_lt_or_eq.mp hj with h | rfl
      · exact h1 j h
      · exact h2
    · intro h
      exact ⟨fun j hj => h j (Nat.lt_succ_of_lt hj), h n (Nat.lt_succ_self n)⟩

/-- After N steps the running minimum is the infimum of the N steps. -/
theorem minAcc_eq_iInf (g : ℕ → EReal) (N : ℕ) : minAcc g N = ⨅ j : Fin N, g j.val := by
  refine eq_of_forall_le_iff fun x => ?_
  rw [le_minAcc_iff, le_iInf_iff]
  exact ⟨fun h j => h j.val j.isLt, fun h j hj => h ⟨j, hj⟩⟩

/-- After N steps the running sum is the sum of the N steps. -/
theorem sumAcc_eq_sum (g : ℕ → EReal) (N : ℕ) : sumAcc g N = ∑ j : Fin N, g j.val := by
  induction N with
  | zero => simp [sumAcc]
  | succ n ih => rw [sumAcc_succ, ih, Fin.sum_univ_castSucc]; rfl

/-- The fifty tiles' running minimum is the infimum over the tiles. -/
theorem minAcc_fifty (g : ℕ → EReal) : minAcc g 50 = ⨅ j : Fin 50, g j.val := minAcc_eq_iInf g 50
/-- The fifty tiles' running sum is the sum over the tiles. -/
theorem sumAcc_fifty (g : ℕ → EReal) : sumAcc g 50 = ∑ j : Fin 50, g j.val := sumAcc_eq_sum g 50

/-! ## A supremum over an array's indices, by batch and flattened position -/

/-- Every index of a [4, 240, 320] array is pixel n = 320 * row + column of its batch. -/
theorem idxA_surj (i : SA.Idx) : ∃ (b : Fin 4) (n : Fin 76800), i = idxA b n := by
  have h0 : (i 0).val < 4 := (i 0).isLt
  have h1 : (i 1).val < 240 := (i 1).isLt
  have h2 : (i 2).val < 320 := (i 2).isLt
  refine ⟨⟨(i 0).val, h0⟩, ⟨(i 1).val * 320 + (i 2).val, by omega⟩, ?_⟩
  funext a
  match a with
  | ⟨0, _⟩ => rfl
  | ⟨1, _⟩ => exact Fin.ext (by show (i 1).val = ((i 1).val * 320 + (i 2).val) / 320; omega)
  | ⟨2, _⟩ => exact Fin.ext (by show (i 2).val = ((i 1).val * 320 + (i 2).val) % 320; omega)

/-- Every index of a [4, 256] array is a batch and a centre. -/
theorem idxC_surj (i : SC.Idx) : ∃ (b : Fin 4) (p : Fin 256), i = idxC b p := by
  refine ⟨⟨(i 0).val, (i 0).isLt⟩, ⟨(i 1).val, (i 1).isLt⟩, ?_⟩
  funext a
  match a with
  | ⟨0, _⟩ => rfl
  | ⟨1, _⟩ => rfl

/-- A supremum over the indices of a [4, 240, 320] array is the one over the batches of the one over the pixels. -/
theorem iSup_flatten {α : Type*} [CompleteLattice α] (g : SA.Idx → α) :
    ⨆ i : SA.Idx, g i = ⨆ b : Fin 4, ⨆ n : Fin 76800, g (idxA b n) := by
  apply le_antisymm
  · refine iSup_le fun i => ?_
    obtain ⟨b, n, rfl⟩ := idxA_surj i
    exact le_iSup_of_le b (le_iSup (fun n => g (idxA b n)) n)
  · exact iSup_le fun b => iSup_le fun n => le_iSup g _

/-- A supremum over the indices of a [4, 256] array is the one over the batches of the one over the centres. -/
theorem iSup_flattenC {α : Type*} [CompleteLattice α] (g : SC.Idx → α) :
    ⨆ i : SC.Idx, g i = ⨆ b : Fin 4, ⨆ p : Fin 256, g (idxC b p) := by
  apply le_antisymm
  · refine iSup_le fun i => ?_
    obtain ⟨b, p, rfl⟩ := idxC_surj i
    exact le_iSup_of_le b (le_iSup (fun p => g (idxC b p)) p)
  · exact iSup_le fun b => iSup_le fun p => le_iSup g _

end Cert.Spec

end
-- ==== Proof.SpecReduce.lean ====
/-
  The reference's maxima over all axes, its minima over the last axis and its one concatenation read at an index,
  over literal shapes and at the extended reals: every statement is about the pure operations alone.
  * A maximum taken over ALL axes of an array, from a starting value, is that value joined with the supremum of the
    array's entries.
  * A minimum taken over the last axis of a [4, 257, 76800] (or a [4, 76800, 257]) array, from a starting value, is
    at (b, p) (at (b, n)) that value met with the infimum over the last coordinate.
  * The [4, 256] and [4, 1] arrays joined along axis 1 read, at (b, p), the first at (b, p) for p < 256 and the second
    at (b, 0) at p = 256.
  * A sum over the indices of a [4] array is the sum over the four coordinates.
-/
import proofs.«149737_j80418967650489_1_alg».proof.Proof.SpecAlgebra
import Idealize.ShloMosaic.PureOps.Reduce
import Idealize.ShloMosaic.Lib.Pipeline.Value

noncomputable section

open scoped BigOperators

namespace Cert.Spec

open Idealize.ShloMosaic Idealize.ShloMosaic.ValueIdx

/-- The scalar shape. -/
abbrev S0 : Shape := ⟨0, ![]⟩
/-- The batch vector's shape. -/
abbrev SB : Shape := ⟨1, ![4]⟩
/-- The padding column's shape. -/
abbrev SC1 : Shape := ⟨2, ![4, 1]⟩
/-- The padded centres' shape. -/
abbrev SCP : Shape := ⟨2, ![4, 257]⟩
/-- The flattened target's shape. -/
abbrev SN : Shape := ⟨2, ![4, 76800]⟩
/-- The centre-by-pixel table's shape. -/
abbrev SPN : Shape := ⟨3, ![4, 257, 76800]⟩
/-- The pixel-by-centre table's shape. -/
abbrev SNP : Shape := ⟨3, ![4, 76800, 257]⟩

/-! ## A reduction over all axes -/

/-- Into a shape whose axes all have size one, a reduction with a commutative and associative body folds over EVERY
    index of the operand. -/
theorem reduce_total {α : Type} {s t u : Shape} {axes : List (Fin s.rank)} (f : α → α → α) [Std.Commutative f]
    [Std.Associative f] (x : s.Idx → α) (init : u.Idx → α) (h : s.ReducesTo axes t) (hu : 0 < u.numel)
    (ht : ∀ b, t.size b = 1) (j : t.Idx) :
    Host.reduce f x init h hu j = (Finset.univ : Finset s.Idx).fold f (init (Shape.Idx.first hu)) x := by
  rw [Host.reduce_eq_fold]
  rw [Finset.filter_true_of_mem fun i _ => funext fun b => Fin.ext (by
    have := (h.drop i b).isLt; have := (j b).isLt; have := ht b; omega)]

/-- A maximum over all axes, at the extended reals: the starting value joined with the supremum of the entries. -/
theorem reduce_max_total {s t u : Shape} {axes : List (Fin s.rank)} (x : s.Idx → EReal) (init : u.Idx → EReal)
    (h : s.ReducesTo axes t) (hu : 0 < u.numel) (ht : ∀ b, t.size b = 1) (j : t.Idx) :
    Host.reduce (FloatOps.maximumf (F := Ideal) (φ := .f32)) x init h hu j
      = max (init (Shape.Idx.first hu)) (⨆ i, x i) := by
  rw [reduce_total _ x init h hu ht j]
  exact fold_max_init _ x

/-! ## A minimum over the last axis of the two tables -/

/-- The minimum over the pixels of a [4, 257, 76800] table, at centre p of batch b. -/
theorem reduce_min_pixels (x : SPN.Idx → EReal) (init : S0.Idx → EReal) (h' : SPN.ReducesTo [2] SCP)
    (hu : 0 < S0.numel) (b : Fin 4) (p : Fin 257) :
    Host.reduce (FloatOps.minimumf (F := Ideal) (φ := .f32)) x init h' hu (ix2 b p)
      = min (init (Shape.Idx.first hu)) (⨅ n : Fin 76800, x (ix3 b p n)) := by
  rw [Host.reduce_eq_fold_single _ x init h' (by decide) hu]
  refine (fold_min_init _ _).trans (congrArg (min _) (iInf_congr fun n => congrArg x ?_))
  funext c
  match c with
  | ⟨0, _⟩ => rfl
  | ⟨1, _⟩ => rfl
  | ⟨2, _⟩ => rfl

/-- The minimum over the centres of a [4, 76800, 257] table, at pixel n of batch b. -/
theorem reduce_min_centres (x : SNP.Idx → EReal) (init : S0.Idx → EReal) (h' : SNP.ReducesTo [2] SN)
    (hu : 0 < S0.numel) (b : Fin 4) (n : Fin 76800) :
    Host.reduce (FloatOps.minimumf (F := Ideal) (φ := .f32)) x init h' hu (ix2 b n)
      = min (init (Shape.Idx.first hu)) (⨅ p : Fin 257, x (ix3 b n p)) := by
  rw [Host.reduce_eq_fold_single _ x init h' (by decide) hu]
  refine (fold_min_init _ _).trans (congrArg (min _) (iInf_congr fun p => congrArg x ?_))
  funext c
  match c with
  | ⟨0, _⟩ => rfl
  | ⟨1, _⟩ => rfl
  | ⟨2, _⟩ => rfl

/-! ## The centres with the padding column joined on -/

/-- The [4, 256] array and the [4, 1] column joined along axis 1, read at (b, p): the array for p < 256, the
    column at p = 256. -/
theorem concat_pad_apply {α : Type} (x₁ : SC.Idx → α) (x₂ : SC1.Idx → α) (h : Shape.Concatenates [SC, SC1] SCP 1)
    (b : Fin 4) (p : Fin 257) :
    concatenate SCP 1 [⟨SC, x₁⟩, ⟨SC1, x₂⟩] h (ix2 b p)
      = if hp : p.val < 256 then x₁ (ix2 b ⟨p.val, hp⟩) else x₂ (ix2 b (0 : Fin 1)) := by
  by_cases hp : p.val < 256
  · rw [dif_pos hp]
    exact concatenate_pair_apply_left 1 x₁ x₂ h (ix2 b p) rfl (ix2 b ⟨p.val, hp⟩)
      (fun c => match c with | ⟨0, _⟩ => rfl | ⟨1, _⟩ => rfl)
  · rw [dif_neg hp]
    refine concatenate_pair_apply_right 1 x₁ x₂ h (ix2 b p) rfl rfl (ix2 b (0 : Fin 1))
      (fun c => match c with | ⟨0, _⟩ => fun _ => rfl | ⟨1, _⟩ => fun hne => absurd rfl hne) ?_
    have := p.isLt
    show 0 + 256 = p.val
    omega

/-! ## A sum over a [4] array's indices -/

/-- A rank-1 index set of extent n is its coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

end Cert.Spec

end
-- ==== Proof.KVPayload.lean ====
/-
  The two kernels' arithmetic read at an index, on the extended reals. The first kernel's one value is the
  padding scalar: the larger of the masked target's maximum and the centres' maximum, plus the two maxima's
  difference, plus one. The second kernel's values, per tile of 1536 pixels: the centre-by-pixel table of squared
  differences between the padded centres and the tile's padded targets; its minimum over the tile met with the
  running minimum, at each centre; its minimum over the centres, summed over the tile and added to the running
  sum, at each batch; at the start the running minimum is +inf and the running sum is zero; and at the end the
  running minima summed over the centres plus the running sum. The mask arrives as floats (0 or 1): a float read
  off a mask bit is nonzero exactly when the bit is set.
-/
import proofs.«149737_j80418967650489_1_alg».proof.Proof.Gen.KernelIdeal.Skeleton
import proofs.«149737_j80418967650489_1_alg».proof.Proof.SpecReduce
import Idealize.ShloMosaic.Lib.ValueLayout

noncomputable section

open scoped BigOperators

namespace Cert.KernelIdeal.HandValue

open Cert.KernelIdeal Cert.KernelIdeal.Gen Idealize.ShloMosaic Idealize.ShloMosaic.ValueIdx Cert.Spec

/-! ## Words and the mask -/

/-- A scalar constant's pattern denotes what the pattern denotes. -/
theorem scalar_ofBits (w : BitVec 32) : Scalar.ofBits (F := Ideal) .f32 w = Ideal.ofBits .f32 w := rfl

/-- A select on "a is ordered and not equal to the zero word": on the extended reals every pair is ordered, so
    the condition is a ≠ 0. -/
theorem select_ne_zero (a u v : EReal) :
    Scalar.select (FloatOps.cmpf (F := Ideal) (φ := .f32) .one a (Scalar.ofBits .f32 0x00000000#32)) u v
      = if a ≠ 0 then u else v := by
  rw [Ideal.cmpf_def, scalar_ofBits, Ideal.ofBits_zero_f32]
  unfold Ideal.cmp Scalar.select
  by_cases h : a = 0
  · simp [h]
  · simp [h]

/-- A mask bit converted to a float (0 or 1) is nonzero exactly when the bit is set. -/
theorem uitofp_ne_zero_iff (w : BitVec 1) : FloatOps.uitofp (F := Ideal) .f32 w ≠ (0 : EReal) ↔ w = 1#1 := by
  show (((w.toNat : ℝ) : EReal)) ≠ 0 ↔ w = 1#1
  rcases BitVec.eq_zero_or_eq_one w with rfl | rfl <;> simp

/-- The same for the converted mask array, at an index. -/
theorem uitofp_apply_ne_zero_iff {s : Shape} (x : IVec s 1) (i : s.Idx) :
    (uitofp (F := Ideal) .f32 x : FVec Ideal s .f32) i ≠ (0 : EReal) ↔ x i = 1#1 :=
  uitofp_ne_zero_iff (x i)

/-! ## The second kernel's starting values -/

/-- The running minimum starts at +inf. -/
theorem pay2_apply (b : Fin 4) (p : Fin 257) : k1_pay2 (F := Ideal) (ix2 b p) = ⊤ := by
  unfold k1_pay2
  rw [shapeCast_self]
  exact ofBits_pos_inf

/-- The running sum starts at zero. -/
theorem pay3_apply (b : Fin 4) : k1_pay3 (F := Ideal) (ix2 b (0 : Fin 1)) = 0 := by
  unfold k1_pay3
  rw [shapeCast_self]
  exact Ideal.ofBits_zero_f32

/-! ## The table of squared differences -/

/-- A [4, 257] array given a trailing unit axis and spread over the 1536 pixels reads, at (b, p, k), the array
    at (b, p). -/
theorem spread_centres {α : Type} (y : S4x257.Idx → α) (h : S4x257.ShapeCasts S4x257x1)
    (h' : S4x257x1.Broadcasts S4x257x1536) (b : Fin 4) (p : Fin 257) (k : Fin 1536) :
    broadcastTo S4x257x1536 (shapeCast S4x257x1 y h) h' (ix3 b p k) = y (ix2 b p) := by
  refine (broadcastTo_apply _ h' (ix3 b p k) (ix3 b p (0 : Fin 1)) fun a => ?_).trans
    (shapeCast_apply y h (ix3 b p (0 : Fin 1)) (ix2 b p) ?_)
  · match a with
    | ⟨0, _⟩ => show b.val = if (4 : Nat) = 1 then 0 else b.val; rw [if_neg (by decide)]
    | ⟨1, _⟩ => show p.val = if (257 : Nat) = 1 then 0 else p.val; rw [if_neg (by decide)]
    | ⟨2, _⟩ => show 0 = if (1 : Nat) = 1 then 0 else k.val; rw [if_pos rfl]
  · rw [Shape.rowMajor_val_two, Shape.rowMajor_val_three]
    show b.val * 257 + p.val = (b.val * 257 + p.val) * 1 + 0
    omega

/-- A [4, 1536] array given a middle unit axis and spread over the 257 centres reads, at (b, p, k), the array
    at (b, k). -/
theorem spread_pixels {α : Type} (y : S4x1536.Idx → α) (h : S4x1536.ShapeCasts S4x1x1536)
    (h' : S4x1x1536.Broadcasts S4x257x1536) (b : Fin 4) (p : Fin 257) (k : Fin 1536) :
    broadcastTo S4x257x1536 (shapeCast S4x1x1536 y h) h' (ix3 b p k) = y (ix2 b k) := by
  refine (broadcastTo_apply _ h' (ix3 b p k) (ix3 b (0 : Fin 1) k) fun a => ?_).trans
    (shapeCast_apply y h (ix3 b (0 : Fin 1) k) (ix2 b k) ?_)
  · match a with
    | ⟨0, _⟩ => show b.val = if (4 : Nat) = 1 then 0 else b.val; rw [if_neg (by decide)]
    | ⟨1, _⟩ => show 0 = if (1 : Nat) = 1 then 0 else p.val; rw [if_pos rfl]
    | ⟨2, _⟩ => show k.val = if (1536 : Nat) = 1 then 0 else k.val; rw [if_neg (by decide)]
  · rw [Shape.rowMajor_val_two, Shape.rowMajor_val_three]
    show b.val * 1536 + k.val = (b.val * 1 + 0) * 1536 + k.val
    omega

/-- The table at (b, p, k): the squared difference of centre p and the tile's pixel k, the pixel replaced by the
    padding scalar where its mask float is zero. -/
theorem pay4_apply (v3 : Vec Ideal S1x1 .f32) (v5 v7 : Vec Ideal S4x1536 .f32) (v13 : Vec Ideal S4x257 .f32)
    (b : Fin 4) (p : Fin 257) (k : Fin 1536) :
    k1_pay4 (F := Ideal) v3 v5 v7 v13 (ix3 b p k)
      = sq (v13 (ix2 b p)) (if v7 (ix2 b k) ≠ 0 then v5 (ix2 b k) else v3 (ix2 (0 : Fin 1) (0 : Fin 1))) := by
  unfold k1_pay4
  rw [shapeCast_self, shapeCast_self, shapeCast_self]
  show (broadcastTo S4x257x1536 (shapeCast S4x257x1 v13 _) _ (ix3 b p k)
      - broadcastTo S4x257x1536 (shapeCast S4x1x1536 _ _) _ (ix3 b p k))
    * (broadcastTo S4x257x1536 (shapeCast S4x257x1 v13 _) _ (ix3 b p k)
      - broadcastTo S4x257x1536 (shapeCast S4x1x1536 _ _) _ (ix3 b p k)) = _
  rw [spread_centres, spread_pixels]
  show sq (v13 (ix2 b p)) (Scalar.select (FloatOps.cmpf (F := Ideal) (φ := .f32) .one (v7 (ix2 b k)) (Scalar.ofBits .f32 0x00000000#32))
    (v5 (ix2 b k)) (v3 (fun a => ⟨![0, 0] a, inpos_S1x1_p0_0 a⟩))) = _
  rw [select_ne_zero]
  have e : (fun a => ⟨![0, 0] a, inpos_S1x1_p0_0 a⟩ : S1x1.Idx) = ix2 (0 : Fin 1) (0 : Fin 1) := by
    funext a; match a with | ⟨0, _⟩ => rfl | ⟨1, _⟩ => rfl
  rw [e]

/-! ## Reductions over one axis -/

/-- A minimum over one axis, from the accumulator's value: that value met with the infimum over the axis. -/
theorem reduction_min_single {s t : Shape} {a : Fin s.rank} (src : FVec Ideal s .f32) (acc : BitVec FTy.f32.bits)
    (h : s.Reduces [a] t) (hφ : FKind.Formats .f32) (hacc : acc = FKind.minimumf.neutral .f32 hφ) (j : t.Idx) :
    multiReduction .minimumf [a] t src acc h hφ hacc j
      = min (Ideal.ofBits .f32 acc) (⨅ k : Fin (s.size a), src (h.lift j k)) := by
  rw [multiReduction_minimumf_eq_fold, h.fold_filter_drop_single]
  exact fold_min_init _ _

/-- A maximum over one axis, from the accumulator's value: that value joined with the supremum over the axis. -/
theorem reduction_max_single {s t : Shape} {a : Fin s.rank} (src : FVec Ideal s .f32) (acc : BitVec FTy.f32.bits)
    (h : s.Reduces [a] t) (hφ : FKind.Formats .f32) (hacc : acc = FKind.maximumf.neutral .f32 hφ) (j : t.Idx) :
    multiReduction .maximumf [a] t src acc h hφ hacc j
      = max (Ideal.ofBits .f32 acc) (⨆ k : Fin (s.size a), src (h.lift j k)) := by
  rw [Ideal.multiReduction_maximumf_single]
  exact fold_max_init _ _

/-- A [4] vector recast as a [4, 1] column reads, at (b, 0), the vector at b. -/
theorem cast_column {α : Type} (y : S4.Idx → α) (h : S4.ShapeCasts S4x1) (b : Fin 4) :
    shapeCast S4x1 y h (ix2 b (0 : Fin 1)) = y (ix1 b) :=
  shapeCast_apply y h (ix2 b (0 : Fin 1)) (ix1 b) (by
    rw [Shape.rowMajor_val_one, Shape.rowMajor_val_two]
    show b.val = b.val * 1 + 0
    omega)

/-! ## The second kernel's running minimum, running sum and final value -/

/-- The running minimum after a tile, at centre p of batch b: the old one met with the table's infimum over the
    tile. -/
theorem pay5_apply (v3 : Vec Ideal S1x1 .f32) (v5 v7 : Vec Ideal S4x1536 .f32) (v13 v22 : Vec Ideal S4x257 .f32)
    (b : Fin 4) (p : Fin 257) :
    k1_pay5 (F := Ideal) v3 v5 v7 v13 v22 (ix2 b p)
      = min (v22 (ix2 b p)) (⨅ k : Fin 1536, k1_pay4 (F := Ideal) v3 v5 v7 v13 (ix3 b p k)) := by
  unfold k1_pay5
  rw [shapeCast_self]
  refine congrArg (min (v22 (ix2 b p))) ((reduction_min_single (k1_pay4 (F := Ideal) v3 v5 v7 v13) 0x7F800000#32
    reduces_S4x257x1536_S4x257 (.inl rfl) rfl (ix2 b p)).trans ?_)
  rw [ofBits_pos_inf, min_eq_right le_top]
  refine iInf_congr fun k => congrArg _ ?_
  funext c
  match c with
  | ⟨0, _⟩ => rfl
  | ⟨1, _⟩ => rfl
  | ⟨2, _⟩ => rfl

/-- The running sum after a tile, at batch b: the old one plus, summed over the tile's pixels, the table's
    infimum over the centres. -/
theorem pay6_apply (v3 : Vec Ideal S1x1 .f32) (v5 v7 : Vec Ideal S4x1536 .f32) (v13 : Vec Ideal S4x257 .f32)
    (v30 : Vec Ideal S4x1 .f32) (b : Fin 4) :
    k1_pay6 (F := Ideal) v3 v5 v7 v13 v30 (ix2 b (0 : Fin 1))
      = v30 (ix2 b (0 : Fin 1))
        + ∑ k : Fin 1536, ⨅ p : Fin 257, k1_pay4 (F := Ideal) v3 v5 v7 v13 (ix3 b p k) := by
  unfold k1_pay6
  rw [shapeCast_self]
  refine congrArg (v30 (ix2 b (0 : Fin 1)) + ·) ((cast_column _ _ b).trans ?_)
  refine (Ideal.multiReduction_add_single _ 0x00000000#32 reduces_S4x1536_S4 (.inl rfl) rfl (ix1 b)).trans ?_
  refine Finset.sum_congr rfl fun k _ => ?_
  refine (reduction_min_single (k1_pay4 (F := Ideal) v3 v5 v7 v13) 0x7F800000#32
    reduces_S4x257x1536_S4x1536 (.inl rfl) rfl _).trans ?_
  rw [ofBits_pos_inf, min_eq_right le_top]
  refine iInf_congr fun p => congrArg _ ?_
  funext c
  match c with
  | ⟨0, _⟩ => rfl
  | ⟨1, _⟩ => rfl
  | ⟨2, _⟩ => rfl

/-- The final value at batch b: the running minima summed over the 257 centres, plus the running sum. -/
theorem pay1_apply (v38 : Vec Ideal S4x257 .f32) (v41 : Vec Ideal S4x1 .f32) (b : Fin 4) :
    k1_pay1 (F := Ideal) v38 v41 (ix2 b (0 : Fin 1))
      = (∑ p : Fin 257, v38 (ix2 b p)) + v41 (ix2 b (0 : Fin 1)) := by
  unfold k1_pay1
  refine congrArg (· + v41 (ix2 b (0 : Fin 1))) ((cast_column _ _ b).trans ?_)
  refine (Ideal.multiReduction_add_single _ 0x00000000#32 reduces_S4x257_S4 (.inl rfl) rfl (ix1 b)).trans ?_
  refine Finset.sum_congr rfl fun p _ => congrArg v38 ?_
  funext c
  match c with
  | ⟨0, _⟩ => rfl
  | ⟨1, _⟩ => rfl

/-! ## The first kernel: the padding scalar -/

/-- An array under a float mask, -inf where the mask float is zero. -/
theorem masked_apply {s : Shape} (x m : FVec Ideal s .f32) (i : s.Idx) :
    select (cmpf .one m (broadcast s (Scalar.ofBits (F := Ideal) .f32 0x00000000#32))) x
        (broadcast s (Scalar.ofBits (F := Ideal) .f32 0xFF800000#32)) i
      = if m i ≠ 0 then x i else ⊥ := by
  show Scalar.select (FloatOps.cmpf (F := Ideal) (φ := .f32) .one (m i) (Scalar.ofBits .f32 0x00000000#32)) (x i)
    (Scalar.ofBits (F := Ideal) .f32 0xFF800000#32) = _
  rw [select_ne_zero, scalar_ofBits, ofBits_neg_inf]

/-- A row maximum of a [4, N] array from -inf, at batch b: the supremum over the row. -/
theorem rowmax_apply {N : Nat} (x : FVec Ideal ⟨2, ![4, N]⟩ .f32) (h : (⟨2, ![4, N]⟩ : Shape).Reduces [1] S4)
    (hφ : FKind.Formats .f32) (hacc : (0xFF800000#32 : BitVec FTy.f32.bits) = FKind.maximumf.neutral .f32 hφ)
    (b : Fin 4) :
    multiReduction .maximumf [1] S4 x 0xFF800000#32 h hφ hacc (ix1 b) = ⨆ n : Fin N, x (ix2 b n) := by
  refine (reduction_max_single x _ h hφ hacc (ix1 b)).trans ?_
  rw [ofBits_neg_inf, max_eq_right bot_le]
  refine iSup_congr fun n => congrArg x ?_
  funext c
  match c with
  | ⟨0, _⟩ => rfl
  | ⟨1, _⟩ => rfl

/-- The maximum of a [4] vector taken as a column maximum of its [4, 1] recast, from -inf, and recast to [1, 1]:
    the supremum over the four entries. -/
theorem colmax_apply (y : FVec Ideal S4 .f32) (h1 : S4.ShapeCasts S4x1) (h2 : S4x1.Reduces [0] S1)
    (h3 : S1.ShapeCasts S1x1) (hφ : FKind.Formats .f32)
    (hacc : (0xFF800000#32 : BitVec FTy.f32.bits) = FKind.maximumf.neutral .f32 hφ) :
    shapeCast S1x1 (multiReduction .maximumf [0] S1 (shapeCast S4x1 y h1) 0xFF800000#32 h2 hφ hacc) h3
        (ix2 (0 : Fin 1) (0 : Fin 1))
      = ⨆ b : Fin 4, y (ix1 b) := by
  refine (shapeCast_apply _ h3 (ix2 (0 : Fin 1) (0 : Fin 1)) (ix1 (0 : Fin 1)) (by
    rw [Shape.rowMajor_val_one, Shape.rowMajor_val_two]; rfl)).trans ?_
  refine (reduction_max_single _ _ h2 hφ hacc (ix1 (0 : Fin 1))).trans ?_
  rw [ofBits_neg_inf, max_eq_right bot_le]
  show (⨆ b : Fin 4, shapeCast S4x1 y h1 (h2.lift (ix1 (0 : Fin 1)) b)) = _
  refine iSup_congr fun b => ?_
  have e : h2.lift (ix1 (0 : Fin 1)) b = ix2 b (0 : Fin 1) := by
    funext c
    match c with
    | ⟨0, _⟩ => rfl
    | ⟨1, _⟩ => rfl
  rw [e]
  exact cast_column y h1 b

/-- The shape of the padding scalar's arithmetic, at an index. -/
theorem pad_form (A B : FVec Ideal S1x1 .f32) (i : S1x1.Idx) :
    addf (addf (maximumf A B) (subf (maximumf A B) (minimumf A B)))
        (broadcast S1x1 (Scalar.ofBits (F := Ideal) .f32 0x3F800000#32)) i
      = (max (A i) (B i) + (max (A i) (B i) - min (A i) (B i))) + Ideal.ofBits .f32 0x3F800000#32 := rfl

/-- The first kernel's value: with M1 the supremum of the target where its mask float is nonzero (-inf elsewhere)
    and M2 the supremum of the centres, (max M1 M2 + (max M1 M2 - min M1 M2)) + 1. -/
theorem pay0_apply (v0 v2 : Vec Ideal S4x76800 .f32) (v12 : Vec Ideal S4x256 .f32) :
    k0_pay1 (F := Ideal) v0 v2 v12 (ix2 (0 : Fin 1) (0 : Fin 1))
      = (max (⨆ b : Fin 4, ⨆ n : Fin 76800, if v2 (ix2 b n) ≠ 0 then v0 (ix2 b n) else ⊥)
              (⨆ b : Fin 4, ⨆ p : Fin 256, v12 (ix2 b p))
          + (max (⨆ b : Fin 4, ⨆ n : Fin 76800, if v2 (ix2 b n) ≠ 0 then v0 (ix2 b n) else ⊥)
                (⨆ b : Fin 4, ⨆ p : Fin 256, v12 (ix2 b p))
              - min (⨆ b : Fin 4, ⨆ n : Fin 76800, if v2 (ix2 b n) ≠ 0 then v0 (ix2 b n) else ⊥)
                (⨆ b : Fin 4, ⨆ p : Fin 256, v12 (ix2 b p))))
        + Ideal.ofBits .f32 0x3F800000#32 := by
  unfold k0_pay1
  rw [shapeCast_self, shapeCast_self]
  refine (pad_form _ _ _).trans ?_
  refine congrArg₂ (fun a c => (max a c + (max a c - min a c)) + Ideal.ofBits .f32 0x3F800000#32) ?_ ?_
  · refine (colmax_apply _ _ _ _ _ _).trans (iSup_congr fun b => ?_)
    refine (rowmax_apply _ _ _ _ b).trans (iSup_congr fun n => ?_)
    exact masked_apply v0 v2 (ix2 b n)
  · refine (colmax_apply _ _ _ _ _ _).trans (iSup_congr fun b => ?_)
    exact rowmax_apply _ _ _ _ b

end Cert.KernelIdeal.HandValue

end
-- ==== Proof.KIValue.lean ====
/-
  The second region's accumulation, read on the extended reals. Suppose that when the region is entered the padded
  centers read `Cc b p` at (b, p), and that a pixel's target, or the padding value where its mask is off, reads
  `Tt b n` at (b, n). Then at point `t` the body's squared-difference block is `(Cc b p − Tt b (1536 t + k))²`; so the
  running minima after point `n` are the minimum, over the pixels of tiles `0 … n`, of those squares — the fold
  `min (previous) (tile's minimum)` from +∞ — and the running sums are the sum over those pixels of the minimum over
  the centers, from zero. After the last tile: the minimum over all 76800 pixels, and the sum over all of them.
-/
import proofs.«149737_j80418967650489_1_alg».proof.Proof.Gen.KernelIdeal.Launch
import proofs.«149737_j80418967650489_1_alg».proof.Proof.Gen.KernelIdeal.Skeleton
import proofs.«149737_j80418967650489_1_alg».proof.Proof.Gen.KernelIdeal.Points
import proofs.«149737_j80418967650489_1_alg».proof.Proof.KIAccum
import proofs.«149737_j80418967650489_1_alg».proof.Proof.KIBlocks
import proofs.«149737_j80418967650489_1_alg».proof.Proof.KVPayload
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec Cert.KernelIdeal.HandValue Idealize.ShloMosaic.ValueIdx
open scoped BigOperators

section Accum

variable (V : (c : Dev nD) → (b : Ref sig .tc) → Buf (Elt Ideal) ((c : Thread nD τ).loc b)) (c : Dev nD)
variable (Cc : Fin 4 → Fin 257 → EReal) (Tt : Fin 4 → Fin 76800 → EReal)

/-- Pixel `k` of tile `t`. -/
def tileIx (t : Fin cfg1.N) (k : Fin 1536) : Fin 76800 :=
  ⟨t.val * 1536 + k.val, by have := lt_of_lt_of_eq t.isLt (show cfg1.N = 50 from N_1); have := k.isLt; omega⟩

/-- Tile `j`'s minimum of the squares at center (b, p); +∞ past the grid. -/
def g0 (b : Fin 4) (p : Fin 257) (j : ℕ) : EReal :=
  if h : j < 50 then ⨅ k : Fin 1536, sq (Cc b p) (Tt b ⟨j * 1536 + k.val, by have := k.isLt; omega⟩) else ⊤
/-- Tile `j`'s sum over its pixels of the minimum over the centers; zero past the grid. -/
def g1 (b : Fin 4) (j : ℕ) : EReal :=
  if h : j < 50 then ∑ k : Fin 1536, ⨅ p : Fin 257, sq (Cc b p) (Tt b ⟨j * 1536 + k.val, by have := k.isLt; omega⟩) else 0

variable (hC : ∀ (b : Fin 4) (p : Fin 257), (V c main_v5 : S4x257.Idx → EReal) (ix2 b p) = Cc b p)
variable (hT1 : ∀ (b : Fin 4) (n : Fin 76800), (V c main_v2 : S4x76800.Idx → EReal) (ix2 b n) ≠ (0 : EReal) →
  (V c main_v0 : S4x76800.Idx → EReal) (ix2 b n) = Tt b n)
variable (hT0 : ∀ (b : Fin 4) (n : Fin 76800), (V c main_v2 : S4x76800.Idx → EReal) (ix2 b n) = (0 : EReal) →
  (V c main_v3 : S1x1.Idx → EReal) (ix2 (0 : Fin 1) (0 : Fin 1)) = Tt b n)

include hC hT1 hT0 in
/-- The body's squared-difference block at point `t`. -/
theorem pay4_tile (t : Fin cfg1.N) (b : Fin 4) (p : Fin 257) (k : Fin 1536) :
    k1_pay4 (F := Ideal) (iblk1 V c 3 t) (iblk1 V c 1 t) (iblk1 V c 2 t) (iblk1 V c 0 t) (ix3 b p k)
      = sq (Cc b p) (Tt b (tileIx t k)) := by
  refine (pay4_apply (iblk1 V c 3 t) (iblk1 V c 1 t) (iblk1 V c 2 t) (iblk1 V c 0 t) b p k).trans ?_
  rw [iblk1_0_apply V c t (ix2 b p) (ix2 b p) rfl rfl, iblk1_2_apply V c t (ix2 b k) (ix2 b (tileIx t k)) rfl rfl,
    iblk1_1_apply V c t (ix2 b k) (ix2 b (tileIx t k)) rfl rfl,
    iblk1_3_apply V c t (ix2 (0 : Fin 1) (0 : Fin 1)) (ix2 (0 : Fin 1) (0 : Fin 1)) rfl rfl, hC]
  refine congrArg _ ?_
  split_ifs with h
  · exact hT1 b _ h
  · exact hT0 b _ (not_not.mp h)

include hC hT1 hT0 in
theorem tile_min (t : Fin cfg1.N) (b : Fin 4) (p : Fin 257) :
    (⨅ k : Fin 1536, k1_pay4 (F := Ideal) (iblk1 V c 3 t) (iblk1 V c 1 t) (iblk1 V c 2 t) (iblk1 V c 0 t) (ix3 b p k))
      = g0 Cc Tt b p t.val := by
  have hN : t.val < 50 := lt_of_lt_of_eq t.isLt (show cfg1.N = 50 from N_1)
  unfold g0; rw [dif_pos hN]
  exact iInf_congr fun k => pay4_tile V c Cc Tt hC hT1 hT0 t b p k

include hC hT1 hT0 in
theorem tile_sum (t : Fin cfg1.N) (b : Fin 4) :
    (∑ k : Fin 1536, ⨅ p : Fin 257, k1_pay4 (F := Ideal) (iblk1 V c 3 t) (iblk1 V c 1 t) (iblk1 V c 2 t) (iblk1 V c 0 t) (ix3 b p k))
      = g1 Cc Tt b t.val := by
  have hN : t.val < 50 := lt_of_lt_of_eq t.isLt (show cfg1.N = 50 from N_1)
  unfold g1; rw [dif_pos hN]
  exact Finset.sum_congr rfl fun k _ => iInf_congr fun p => pay4_tile V c Cc Tt hC hT1 hT0 t b p k

include hC hT1 hT0 in
/-- The running minima after point `n`. -/
theorem scr0_val : ∀ (n : ℕ) (hn : n < cfg1.N) (b : Fin 4) (p : Fin 257),
    ((outsAt1 V c n hn).2.1 : S4x257.Idx → EReal) (ix2 b p) = minAcc (g0 Cc Tt b p) (n + 1)
  | 0, hn, b, p => by
    have e : (outsAt1 V c 0 hn).2.1 = _ := scr0_step V c ⟨0, hn⟩
    rw [e]
    refine (pay5_apply _ _ _ _ _ b p).trans ?_
    rw [tile_min V c Cc Tt hC hT1 hT0 ⟨0, hn⟩ b p]
    have e0 : prev0 V c ⟨0, hn⟩ = k1_pay2 (F := Ideal) := by unfold prev0; exact dif_pos rfl
    rw [e0, pay2_apply, minAcc_succ, minAcc_zero]
  | n + 1, hn, b, p => by
    have e : (outsAt1 V c (n + 1) hn).2.1 = _ := scr0_step V c ⟨n + 1, hn⟩
    rw [e]
    refine (pay5_apply _ _ _ _ _ b p).trans ?_
    rw [tile_min V c Cc Tt hC hT1 hT0 ⟨n + 1, hn⟩ b p]
    have e0 : prev0 V c ⟨n + 1, hn⟩ = (outsAt1 V c n (Nat.lt_of_succ_lt hn)).2.1 := by
      unfold prev0; exact dif_neg (Nat.succ_ne_zero n)
    rw [e0, scr0_val n (Nat.lt_of_succ_lt hn) b p, ← minAcc_succ]

include hC hT1 hT0 in
/-- The running sums after point `n`. -/
theorem scr1_val : ∀ (n : ℕ) (hn : n < cfg1.N) (b : Fin 4),
    ((outsAt1 V c n hn).2.2 : S4x1.Idx → EReal) (ix2 b (0 : Fin 1)) = sumAcc (g1 Cc Tt b) (n + 1)
  | 0, hn, b => by
    have e : (outsAt1 V c 0 hn).2.2 = _ := scr1_step V c ⟨0, hn⟩
    rw [e]
    refine (pay6_apply _ _ _ _ _ b).trans ?_
    rw [tile_sum V c Cc Tt hC hT1 hT0 ⟨0, hn⟩ b]
    have e0 : prev1 V c ⟨0, hn⟩ = k1_pay3 (F := Ideal) := by unfold prev1; exact dif_pos rfl
    rw [e0, pay3_apply, sumAcc_succ, sumAcc_zero]
  | n + 1, hn, b => by
    have e : (outsAt1 V c (n + 1) hn).2.2 = _ := scr1_step V c ⟨n + 1, hn⟩
    rw [e]
    refine (pay6_apply _ _ _ _ _ b).trans ?_
    rw [tile_sum V c Cc Tt hC hT1 hT0 ⟨n + 1, hn⟩ b]
    have e0 : prev1 V c ⟨n + 1, hn⟩ = (outsAt1 V c n (Nat.lt_of_succ_lt hn)).2.2 := by
      unfold prev1; exact dif_neg (Nat.succ_ne_zero n)
    rw [e0, scr1_val n (Nat.lt_of_succ_lt hn) b, ← sumAcc_succ]

/-- All fifty tiles: the minimum over every pixel. -/
theorem minAcc_all (b : Fin 4) (p : Fin 257) :
    minAcc (g0 Cc Tt b p) 50 = ⨅ n : Fin 76800, sq (Cc b p) (Tt b n) := by
  rw [minAcc_fifty, iInf_tiles (fun n => sq (Cc b p) (Tt b n))]
  exact iInf_congr fun j => by unfold g0; rw [dif_pos j.isLt]

/-- All fifty tiles: the sum over every pixel. -/
theorem sumAcc_all (b : Fin 4) :
    sumAcc (g1 Cc Tt b) 50 = ∑ n : Fin 76800, ⨅ p : Fin 257, sq (Cc b p) (Tt b n) := by
  rw [sumAcc_fifty, sum_tiles (fun n => ⨅ p : Fin 257, sq (Cc b p) (Tt b n))]
  exact Finset.sum_congr rfl fun j _ => by unfold g1; rw [dif_pos j.isLt]

end Accum

end Cert.KernelIdeal.Hand

end
-- ==== Proof.KVEntry.lean ====
/-
  What the arrays hold when the second kernel region is entered, in terms of the launch memory, on the extended
  reals. The first host stretch flattens the target and the mask (the mask first converted to floats, 0 or 1), so
  position n of batch b of each reads the [4, 240, 320] array at row n / 320, column n % 320. The first region has
  one grid point; each of its windows is one whole-array block, so its body sees the three arrays themselves and
  its one write-back puts the body's value — the padding scalar of the three arrays — into the 1×1 output. The
  second host stretch spreads that scalar over a [4, 1] column and joins it onto the centres. No stretch or region
  in between writes the flattened target, the flattened mask or the centres.
-/
import proofs.«149737_j80418967650489_1_alg».proof.Proof.Gen.KernelIdeal.Launch
import proofs.«149737_j80418967650489_1_alg».proof.Proof.Gen.KernelIdeal.Skeleton
import proofs.«149737_j80418967650489_1_alg».proof.Proof.Gen.KernelIdeal.Points
import proofs.«149737_j80418967650489_1_alg».proof.Proof.Gen.KernelIdeal.Regions
import proofs.«149737_j80418967650489_1_alg».proof.Proof.KIRun
import proofs.«149737_j80418967650489_1_alg».proof.Proof.KIPieces
import proofs.«149737_j80418967650489_1_alg».proof.Proof.KVPayload
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx Cert.KernelIdeal.HandValue

variable (m : (ℓ : Loc nD τ sig) → Buf (Elt Ideal) ℓ) (ρ : Dev nD → PrngReg)

/-! ## After the first host stretch -/

/-- The flattened target is the target recast. -/
theorem B1_v0_eq (c : Dev nD) :
    (B1 m ρ c (Proc.devRef .tc main_v0) : S4x76800.Idx → EReal)
      = shapeCast S4x76800 (m ((c : Thread nD τ).loc main_arg0)) shapeCasts_S4x240x320_S4x76800 := by
  dsimp only [B1, hostOps0]
  after_results
  rfl

/-- Position n of batch b of the flattened target is the target at pixel n of batch b. -/
theorem B1_v0_apply (c : Dev nD) (b : Fin 4) (n : Fin 76800) :
    B1 m ρ c (Proc.devRef .tc main_v0) (ix2 b n) = Cert.Spec.tgt (m ((c : Thread nD τ).loc main_arg0)) b n := by
  rw [B1_v0_eq]
  have hb := b.isLt
  have hn := n.isLt
  exact shapeCast_apply _ _ (ix2 b n) (Cert.Spec.idxA b n) (by
    rw [Shape.rowMajor_val_three, Shape.rowMajor_val_two]
    show (b.val * 240 + n.val / 320) * 320 + n.val % 320 = b.val * 76800 + n.val
    omega)

/-- The flattened mask is the mask converted to floats, recast. -/
theorem B1_v2_eq (c : Dev nD) :
    (B1 m ρ c (Proc.devRef .tc main_v2) : S4x76800.Idx → EReal)
      = shapeCast S4x76800 (uitofp (F := Ideal) .f32 (m ((c : Thread nD τ).loc main_arg2)))
          shapeCasts_S4x240x320_S4x76800 := by
  dsimp only [B1, hostOps0]
  after_results
  rfl

/-- Position n of batch b of the flattened mask is nonzero exactly when the mask bit at pixel n of batch b is set. -/
theorem B1_v2_ne_zero_iff (c : Dev nD) (b : Fin 4) (n : Fin 76800) :
    B1 m ρ c (Proc.devRef .tc main_v2) (ix2 b n) ≠ (0 : EReal)
      ↔ Cert.Spec.msk (m ((c : Thread nD τ).loc main_arg2)) b n = 1#1 := by
  rw [B1_v2_eq]
  have hb := b.isLt
  have hn := n.isLt
  rw [shapeCast_apply _ _ (ix2 b n) (Cert.Spec.idxA b n) (by
    rw [Shape.rowMajor_val_three, Shape.rowMajor_val_two]
    show (b.val * 240 + n.val / 320) * 320 + n.val % 320 = b.val * 76800 + n.val
    omega)]
  exact uitofp_apply_ne_zero_iff _ _

/-- The centres are as launched. -/
theorem B1_arg1_eq (c : Dev nD) :
    B1 m ρ c (Proc.devRef .tc main_arg1) = m ((c : Thread nD τ).loc main_arg1) :=
  (StableHlo.after_of_writes_sub hostOps0 _ hostOps0_writes (by decide)).trans rfl

/-! ## The first region -/

/-- The flattened target's window has one block, the whole array. -/
theorem iblk0_0_eq (c : Dev nD) (t : Fin cfg0.N) : iblk0 (E1 m ρ) c 0 t = B1 m ρ c (Proc.devRef .tc main_v0) := by
  obtain rfl := fin_N0 t
  unfold iblk0
  have hz' : (fun a => win0_0.index t0_0 a * main_v0.ty.shape.size a) = fun _ => 0 :=
    funext fun a => by fin_cases a <;> decide
  exact Memref.read_access_unit_zero (Elt Ideal) main_v0 hz' (fun a => by rw [congrFun hz' a]; simp) _

/-- The flattened mask's window has one block, the whole array. -/
theorem iblk0_1_eq (c : Dev nD) (t : Fin cfg0.N) : iblk0 (E1 m ρ) c 1 t = B1 m ρ c (Proc.devRef .tc main_v2) := by
  obtain rfl := fin_N0 t
  unfold iblk0
  have hz' : (fun a => win0_1.index t0_0 a * main_v2.ty.shape.size a) = fun _ => 0 :=
    funext fun a => by fin_cases a <;> decide
  exact Memref.read_access_unit_zero (Elt Ideal) main_v2 hz' (fun a => by rw [congrFun hz' a]; simp) _

/-- The centres' window has one block, the whole array. -/
theorem iblk0_2_eq (c : Dev nD) (t : Fin cfg0.N) : iblk0 (E1 m ρ) c 2 t = B1 m ρ c (Proc.devRef .tc main_arg1) := by
  obtain rfl := fin_N0 t
  unfold iblk0
  have hz' : (fun a => win0_2.index t0_0 a * main_arg1.ty.shape.size a) = fun _ => 0 :=
    funext fun a => by fin_cases a <;> decide
  exact Memref.read_access_unit_zero (Elt Ideal) main_arg1 hz' (fun a => by rw [congrFun hz' a]; simp) _

/-- The first region leaves in its 1×1 output the padding scalar of the three arrays it was entered with: its one
    grid point writes back the whole output, which the body set to that value of its three input blocks. -/
theorem B2_v3_eq (c : Dev nD) :
    B2 m ρ c (Proc.devRef .tc main_v3)
      = k0_pay1 (F := Ideal) (B1 m ρ c (Proc.devRef .tc main_v0)) (B1 m ρ c (Proc.devRef .tc main_v2))
          (B1 m ρ c (Proc.devRef .tc main_arg1)) := by
  refine (B2_arr m ρ c 3).trans ?_
  refine (dat0 (E1 m ρ) c).arrAt_eq_of_cover 3 _ (fun t _ => ?_) (fun i => ⟨t0_0, flush0_3 t0_0, ?_⟩)
  · obtain rfl := fin_N0 t
    show (cfg0.win 3).cut (grid0.coords t0_0) ((dat0 (E1 m ρ) c).after 3 t0_0) = _
    rw [after0_3, out0_3_eq, iblk0_0_eq, iblk0_1_eq, iblk0_2_eq]
    have hz' : (fun a => win0_3.index t0_0 a * main_v3.ty.shape.size a) = fun _ => 0 :=
      funext fun a => by fin_cases a <;> decide
    exact (Memref.read_access_unit_zero (Elt Ideal) main_v3 hz' (fun a => by rw [congrFun hz' a]; simp) _).symm
  · show i ∈ ((View.whole main_v3).slice (win0_3.rect t0_0)).set
    rw [View.set_slice_whole, Rect.mem_set_unit]
    intro a
    have h0 : (i 0 : Nat) < 1 := (i 0).isLt
    have h1 : (i 1 : Nat) < 1 := (i 1).isLt
    match a with
    | ⟨0, _⟩ =>
      show win0_3.index t0_0 0 * win0_3.size 0 ≤ (i 0 : Nat)
        ∧ (i 0 : Nat) < win0_3.index t0_0 0 * win0_3.size 0 + win0_3.xsize (grid0.coords t0_0) 0
      rw [show win0_3.index t0_0 0 * win0_3.size 0 = 0 from by decide +kernel,
        show win0_3.xsize (grid0.coords t0_0) 0 = 1 from by decide +kernel]
      omega
    | ⟨1, _⟩ =>
      show win0_3.index t0_0 1 * win0_3.size 1 ≤ (i 1 : Nat)
        ∧ (i 1 : Nat) < win0_3.index t0_0 1 * win0_3.size 1 + win0_3.xsize (grid0.coords t0_0) 1
      rw [show win0_3.index t0_0 1 * win0_3.size 1 = 0 from by decide +kernel,
        show win0_3.xsize (grid0.coords t0_0) 1 = 1 from by decide +kernel]
      omega

/-- That scalar is the specification's padding value of the three launch arrays. -/
theorem B2_v3_apply (c : Dev nD) :
    B2 m ρ c (Proc.devRef .tc main_v3) (ix2 (0 : Fin 1) (0 : Fin 1))
      = Cert.Spec.pad (m ((c : Thread nD τ).loc main_arg0)) (m ((c : Thread nD τ).loc main_arg1))
          (m ((c : Thread nD τ).loc main_arg2)) := by
  rw [B2_v3_eq, pay0_apply]
  refine congrArg₂ (fun a c => (max a c + (max a c - min a c)) + Ideal.ofBits .f32 0x3F800000#32) ?_ ?_
  · refine (iSup_congr fun b => iSup_congr fun n => ?_ : _ = Cert.Spec.maxT _ _)
    rw [B1_v0_apply]
    exact if_congr (B1_v2_ne_zero_iff m ρ c b n) rfl rfl
  · refine (iSup_congr fun b => iSup_congr fun p => ?_ : _ = Cert.Spec.maxC _)
    rw [B1_arg1_eq]
    rfl

/-- The first region leaves the centres as entered (an input window's array). -/
theorem B2_arg1_eq (c : Dev nD) :
    B2 m ρ c (Proc.devRef .tc main_arg1) = B1 m ρ c (Proc.devRef .tc main_arg1) :=
  (B2_arr m ρ c 2).trans (((dat0 (E1 m ρ) c).arrAt_in 2 rfl _).trans (A_eq0 (E1 m ρ) c 2))

/-! ## At the second region's entry -/

/-- The flattened target is as after the first host stretch. -/
theorem E3_v0_eq (c : Dev nD) : E3 m ρ c main_v0 = B1 m ρ c (Proc.devRef .tc main_v0) :=
  calc E3 m ρ c main_v0
    _ = B2 m ρ c (Proc.devRef .tc main_v0) := StableHlo.after_of_writes_sub hostOps1 _ hostOps1_writes (by decide)
    _ = B1 m ρ c (Proc.devRef .tc main_v0) :=
      (B2_arr m ρ c 0).trans (((dat0 (E1 m ρ) c).arrAt_in 0 rfl _).trans (A_eq0 (E1 m ρ) c 0))

/-- The flattened mask is as after the first host stretch. -/
theorem E3_v2_eq (c : Dev nD) : E3 m ρ c main_v2 = B1 m ρ c (Proc.devRef .tc main_v2) :=
  calc E3 m ρ c main_v2
    _ = B2 m ρ c (Proc.devRef .tc main_v2) := StableHlo.after_of_writes_sub hostOps1 _ hostOps1_writes (by decide)
    _ = B1 m ρ c (Proc.devRef .tc main_v2) :=
      (B2_arr m ρ c 1).trans (((dat0 (E1 m ρ) c).arrAt_in 1 rfl _).trans (A_eq0 (E1 m ρ) c 1))

/-- The padding scalar is as the first region left it. -/
theorem E3_v3_eq (c : Dev nD) : E3 m ρ c main_v3 = B2 m ρ c (Proc.devRef .tc main_v3) :=
  StableHlo.after_of_writes_sub hostOps1 _ hostOps1_writes (by decide)

/-- The padded centres are the centres with the padding scalar, spread over a column, joined on. -/
theorem B3_v5_eq (c : Dev nD) :
    (B3 m ρ c (Proc.devRef .tc main_v5) : S4x257.Idx → EReal)
      = concatenate S4x257 1 [⟨S4x256, B2 m ρ c (Proc.devRef .tc main_arg1)⟩,
          ⟨S4x1, broadcastInDim S4x1 ![0, 1] bcast_S1x1_S4x1_0_1 (B2 m ρ c (Proc.devRef .tc main_v3))⟩]
          concatenates_S4x256_S4x1_S4x257_d1 := by
  dsimp only [B3, hostOps1]
  after_results

/-- The padded centres at (b, p): centre p of batch b for p < 256, the padding value at p = 256. -/
theorem E3_v5_apply (c : Dev nD) (b : Fin 4) (p : Fin 257) :
    E3 m ρ c main_v5 (ix2 b p)
      = Cert.Spec.ctrP (m ((c : Thread nD τ).loc main_arg0)) (m ((c : Thread nD τ).loc main_arg1))
          (m ((c : Thread nD τ).loc main_arg2)) b p := by
  show B3 m ρ c (Proc.devRef .tc main_v5) (ix2 b p) = _
  rw [B3_v5_eq, Cert.Spec.concat_pad_apply]
  unfold Cert.Spec.ctrP
  by_cases hp : p.val < 256
  · rw [dif_pos hp, dif_pos hp, B2_arg1_eq, B1_arg1_eq]
    rfl
  · rw [dif_neg hp, dif_neg hp]
    refine (broadcastInDim_apply _ bcast_S1x1_S4x1_0_1 _ (ix2 b (0 : Fin 1)) (ix2 (0 : Fin 1) (0 : Fin 1))
      fun a => ?_).trans (B2_v3_apply m ρ c)
    match a with
    | ⟨0, _⟩ => show 0 = if (1 : Nat) = 1 then 0 else b.val; rw [if_pos rfl]
    | ⟨1, _⟩ => show 0 = if (1 : Nat) = 1 then 0 else 0; rw [if_pos rfl]

end Cert.KernelIdeal.Hand

end
-- ==== Proof.KVTail.lean ====
/-
  The kernel program's last host stretch, on the extended reals: the [4, 1] column of per-batch sums is added up
  from zero over both its axes and divided by the word for 4 — the sum from zero over the four batches of the
  column's entries, divided by four.
-/
import proofs.«149737_j80418967650489_1_alg».proof.Proof.KVPayload

noncomputable section

open scoped BigOperators

namespace Cert.KernelIdeal.HandValue

open Cert.KernelIdeal Cert.KernelIdeal.Gen Idealize.ShloMosaic Idealize.ShloMosaic.ValueIdx Cert.Spec

/-- The mean of the four per-batch sums, as the host computes it: a sum from zero over the column, divided by the
    word for 4. -/
theorem tail_eq (col : S4x1.Idx → EReal) (h' : S4x1.ReducesTo [0, 1] S_) (hS : 0 < S_.numel) :
    Host.divf (F := Ideal) (Host.reduceAdd (F := Ideal) col (constant (F := Ideal) S_ .f32 0x00000000#32) h' hS)
        (constant (F := Ideal) S_ .f32 0x40800000#32)
      = fun _ => Ideal.div (0 + ∑ b : Fin 4, col (ix2 b (0 : Fin 1))) (Ideal.ofBits .f32 0x40800000#32) := by
  funext i
  show Ideal.div (Ideal.hostReduceAdd h' col (Ideal.ofBits .f32 0x00000000#32) i) (Ideal.ofBits .f32 0x40800000#32) = _
  refine congrArg (fun s => Ideal.div s (Ideal.ofBits .f32 0x40800000#32)) ?_
  rw [Ideal.hostReduceAdd_total h' (fun b => b.elim0) col _ i, Ideal.ofBits_zero_f32]
  refine congrArg (0 + ·) ?_
  rw [sum_idx2]
  exact Finset.sum_congr rfl fun b _ => Fin.sum_univ_one _

end Cert.KernelIdeal.HandValue

end
-- ==== Proof.KIFinal.lean ====
/-
  The kernel program's result on the extended reals. At the second region's entry the padded centers read the
  specification's padded centers, and a pixel's target — or the padding value where its mask is off — reads the
  specification's padded target; so the fifty tiles' running minima and running sums are the minimum and the sum over
  all pixels, the per-batch column the region leaves is the specification's per-batch value, and the last host stretch
  (the column summed from zero, divided by four) is the specification's result.
-/
import proofs.«149737_j80418967650489_1_alg».proof.Proof.Gen.KernelIdeal.Launch
import proofs.«149737_j80418967650489_1_alg».proof.Proof.Gen.KernelIdeal.Skeleton
import proofs.«149737_j80418967650489_1_alg».proof.Proof.Gen.KernelIdeal.Points
import proofs.«149737_j80418967650489_1_alg».proof.Proof.KIFrame
import proofs.«149737_j80418967650489_1_alg».proof.Proof.KIOut
import proofs.«149737_j80418967650489_1_alg».proof.Proof.KIValue
import proofs.«149737_j80418967650489_1_alg».proof.Proof.KVEntry
import proofs.«149737_j80418967650489_1_alg».proof.Proof.KVTail
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec Cert.KernelIdeal.HandValue Idealize.ShloMosaic.ValueIdx
open scoped BigOperators

variable (m : (ℓ : Loc nD τ sig) → Buf (Elt Ideal) ℓ) (ρ : Dev nD → PrngReg)

/-- Where the mask is on, the entry's flattened target is the specification's padded target. -/
theorem entry_on (c : Dev nD) (b : Fin 4) (n : Fin 76800)
    (h : (E3 m ρ c main_v2 : S4x76800.Idx → EReal) (ix2 b n) ≠ (0 : EReal)) :
    (E3 m ρ c main_v0 : S4x76800.Idx → EReal) (ix2 b n)
      = tgtP (m ((c : Thread nD τ).loc main_arg0)) (m ((c : Thread nD τ).loc main_arg1)) (m ((c : Thread nD τ).loc main_arg2)) b n := by
  rw [E3_v2_eq] at h
  rw [E3_v0_eq, B1_v0_apply]
  unfold tgtP
  rw [if_pos ((B1_v2_ne_zero_iff m ρ c b n).mp h)]

/-- Where the mask is off, the entry's padding scalar is the specification's padded target. -/
theorem entry_off (c : Dev nD) (b : Fin 4) (n : Fin 76800)
    (h : (E3 m ρ c main_v2 : S4x76800.Idx → EReal) (ix2 b n) = (0 : EReal)) :
    (E3 m ρ c main_v3 : S1x1.Idx → EReal) (ix2 (0 : Fin 1) (0 : Fin 1))
      = tgtP (m ((c : Thread nD τ).loc main_arg0)) (m ((c : Thread nD τ).loc main_arg1)) (m ((c : Thread nD τ).loc main_arg2)) b n := by
  rw [E3_v2_eq] at h
  rw [E3_v3_eq, B2_v3_apply]
  unfold tgtP
  rw [if_neg (fun hm => ((B1_v2_ne_zero_iff m ρ c b n).mpr hm) h)]

/-- The per-batch column the second region leaves is the specification's per-batch value. -/
theorem column_eq (c : Dev nD) (b : Fin 4) :
    (B4 m ρ c (Proc.devRef .tc main_v6) : S4x1.Idx → EReal) (ix2 b (0 : Fin 1))
      = perBatch (m ((c : Thread nD τ).loc main_arg0)) (m ((c : Thread nD τ).loc main_arg1)) (m ((c : Thread nD τ).loc main_arg2)) b := by
  rw [B4_main_v6]
  refine (pay1_apply _ _ b).trans ?_
  unfold perBatch
  refine congrArg₂ (· + ·) (Finset.sum_congr rfl fun p _ => ?_) ?_
  · exact (scr0_val (E3 m ρ) c _ _ (E3_v5_apply m ρ c) (entry_on m ρ c) (entry_off m ρ c) 49 t49.isLt b p).trans
      (minAcc_all _ _ b p)
  · exact (scr1_val (E3 m ρ) c _ _ (E3_v5_apply m ρ c) (entry_on m ρ c) (entry_off m ρ c) 49 t49.isLt b).trans
      (sumAcc_all _ _ b)

/-- The program's result buffer at the last boundary is the specification's result of the three launch arrays. -/
theorem result_value (c : Dev nD) :
    B5 m ρ c (Proc.devRef .tc main_v8)
      = fun _ => Cert.Spec.result (m ((c : Thread nD τ).loc main_arg0)) (m ((c : Thread nD τ).loc main_arg1)) (m ((c : Thread nD τ).loc main_arg2)) := by
  rw [B5_main_v8]
  refine (tail_eq _ _ _).trans ?_
  funext _
  unfold Cert.Spec.result
  refine congrArg (fun s : EReal => Ideal.div (0 + s) (Ideal.ofBits .f32 0x40800000#32)) ?_
  exact Finset.sum_congr rfl fun b _ => column_eq m ρ c b

/-- THE RUN WITH ITS VALUE: every weakly fair execution of the idealized kernel program terminates, nothing faulting,
    with the result buffer at the specification's result of the launch arguments and the arguments as launched. -/
theorem run_value : θ_run defs (onTc (τ := τ) (main (F := Ideal))) ⟨m, fun _ => 0, ρ⟩ (fun r => ∀ c : Dev nD,
      r.2.mem ((c.tc : Thread nD τ).loc main_v8)
        = (fun _ => Cert.Spec.result (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v8 (by decide))).trans (result_value m ρ c),
     (h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c)⟩) (run_all m ρ)

end Cert.KernelIdeal.Hand

end
-- ==== Proof.RefValue.lean ====
/-
  What the reference computes is the specification's loss. The reference's operations are read one at a time (the
  pointwise and layout operations by the generated read-at-an-index lemmas; the two maxima over all axes, the join
  of the padding column onto the centres, and the two minima over the last axis of the squared-difference tables by
  the reduction and concatenation laws): the masked maximum and the centres' maximum are the two suprema, the
  padding scalar is built from them, the padded centres and the padded flattened target are read at (b, p) and
  (b, n), each table entry is a squared difference of one of each, the minima from +inf are infima, the sums from
  zero are sums, and the second table's entries (target minus centre, squared) equal the first's (centre minus
  target, squared) by symmetry. Then the reference's run ends with its result at that loss and its arguments
  unchanged, which also gives its frame.
-/
import proofs.«149737_j80418967650489_1_alg».proof.Defs
import proofs.«149737_j80418967650489_1_alg».proof.Proof.Gen.ReferenceIdeal
import proofs.«149737_j80418967650489_1_alg».proof.Proof.Gen.Pre_finite_inputs
import proofs.«149737_j80418967650489_1_alg».proof.Proof.RefGenRead
import proofs.«149737_j80418967650489_1_alg».proof.Proof.SpecReduce

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Spec

section Stages

variable (x0 : (⟨S4x240x320, .f32⟩ : BufTy).Contents (Elt Ideal)) (x1 : (⟨S4x256, .f32⟩ : BufTy).Contents (Elt Ideal))
  (x2 : (⟨S4x240x320, .i1⟩ : BufTy).Contents (Elt Ideal))

/-- Position n of batch b of the flattened target is pixel n of batch b of the [4, 240, 320] array. -/
theorem idx_v11 (b : Fin 4) (n : Fin 76800) : idx_main_v11 (ix2 b n) = idxA b n := by
  have hb := b.isLt
  have hn := n.isLt
  funext a
  match a with
  | ⟨0, _⟩ => exact Fin.ext (by show (b.val * 76800 + n.val) / 76800 = b.val; omega)
  | ⟨1, _⟩ => exact Fin.ext (by show (b.val * 76800 + n.val) / 320 % 240 = n.val / 320; omega)
  | ⟨2, _⟩ => exact Fin.ext (by show (b.val * 76800 + n.val) % 320 = n.val % 320; omega)

/-- The target under the mask: the target where the mask bit is set, -inf elsewhere. -/
theorem v0_apply (i : S4x240x320.Idx) :
    val_main_v0 (F := Ideal) x0 x2 i = if x2 i = 1#1 then x0 i else ⊥ := by
  rw [val_main_v0_apply, val_main_call0_v1_apply, val_main_call0_v0_apply, val_main_cst_apply, Ideal.ofBits_def,
    ofBits_neg_inf]
  rfl

/-- Its maximum over all three axes, from -inf, is the supremum over batches and pixels. -/
theorem v1_eq : val_main_v1 (F := Ideal) x0 x2 = fun _ => maxT x0 x2 := by
  funext j
  unfold val_main_v1
  rw [reduce_max_total _ _ reducesTo_S4x240x320_S_d0_1_2 h_S_ (fun b => b.elim0) j, val_main_cst_0_apply,
    Ideal.ofBits_def, ofBits_neg_inf, max_eq_right bot_le, iSup_flatten]
  exact iSup_congr fun b => iSup_congr fun n => v0_apply x0 x2 (idxA b n)

/-- The centres' maximum over both axes, from -inf, is the supremum over batches and centres. -/
theorem v2_eq : val_main_v2 (F := Ideal) x1 = fun _ => maxC x1 := by
  funext j
  unfold val_main_v2
  rw [reduce_max_total _ _ reducesTo_S4x256_S_d0_1 h_S_ (fun b => b.elim0) j, val_main_cst_1_apply,
    Ideal.ofBits_def, ofBits_neg_inf, max_eq_right bot_le, iSup_flattenC]
  rfl

/-- The padding scalar: the larger maximum, plus the two maxima's difference, plus one. -/
theorem v7_eq : val_main_v7 (F := Ideal) x0 x1 x2 = fun _ => pad x0 x1 x2 := by
  funext j
  rw [val_main_v7_apply, val_main_v6_apply, val_main_v5_apply, val_main_v4_apply, val_main_v3_apply,
    val_main_cst_2_apply, v1_eq, v2_eq]
  rfl

/-- The centres with the padding column joined on, at (b, p). -/
theorem v9_apply (b : Fin 4) (p : Fin 257) :
    val_main_v9 (F := Ideal) x0 x1 x2 (ix2 b p) = ctrP x0 x1 x2 b p := by
  unfold val_main_v9
  rw [concat_pad_apply]
  unfold ctrP
  by_cases hp : p.val < 256
  · rw [dif_pos hp, dif_pos hp]; rfl
  · rw [dif_neg hp, dif_neg hp, val_main_v8_apply, v7_eq]

/-- The target with masked-out pixels padded, flattened, at (b, n). -/
theorem v11_apply (b : Fin 4) (n : Fin 76800) :
    val_main_v11 (F := Ideal) x0 x1 x2 (ix2 b n) = tgtP x0 x1 x2 b n := by
  rw [val_main_v11_apply, idx_v11, val_main_v10_apply, val_main_call1_v0_apply, v7_eq]
  rfl

/-- The centre-by-pixel table of squared differences, at (b, p, n). -/
theorem v17_apply (b : Fin 4) (p : Fin 257) (n : Fin 76800) :
    val_main_v17 (F := Ideal) x0 x1 x2 (ix3 b p n) = sq (ctrP x0 x1 x2 b p) (tgtP x0 x1 x2 b n) := by
  have e14 : idx_main_v12 (idx_main_v14 (ix3 b p n)) = ix2 b p := by
    funext a; match a with | ⟨0, _⟩ => rfl | ⟨1, _⟩ => rfl
  have e15 : idx_main_v13 (idx_main_v15 (ix3 b p n)) = ix2 b n := by
    funext a; match a with | ⟨0, _⟩ => rfl | ⟨1, _⟩ => rfl
  rw [val_main_v17_apply, val_main_v16_apply, val_main_v14_apply, val_main_v12_apply, e14, val_main_v15_apply,
    val_main_v13_apply, e15, v9_apply, v11_apply]
  rfl

/-- Its minimum over the pixels, from +inf: each centre's squared distance to its nearest pixel. -/
theorem v18_apply (b : Fin 4) (p : Fin 257) :
    val_main_v18 (F := Ideal) x0 x1 x2 (ix2 b p)
      = ⨅ n : Fin 76800, sq (ctrP x0 x1 x2 b p) (tgtP x0 x1 x2 b n) := by
  unfold val_main_v18
  rw [reduce_min_pixels, val_main_cst_3_apply, Ideal.ofBits_def, ofBits_pos_inf, min_eq_right le_top]
  exact iInf_congr fun n => v17_apply x0 x1 x2 b p n

/-- Those distances summed over the 257 centres, from zero. -/
theorem v19_apply (b : Fin 4) :
    val_main_v19 (F := Ideal) x0 x1 x2 (ix1 b)
      = ∑ p : Fin 257, ⨅ n : Fin 76800, sq (ctrP x0 x1 x2 b p) (tgtP x0 x1 x2 b n) := by
  rw [val_main_v19_apply, val_main_cst_4_apply, Ideal.ofBits_def, Ideal.ofBits_zero_f32, zero_add]
  refine Finset.sum_congr rfl fun p _ => ?_
  have e : idx_main_v19 (ix1 b) p = ix2 b p := by
    funext a; match a with | ⟨0, _⟩ => rfl | ⟨1, _⟩ => rfl
  rw [e, v18_apply]

/-- The pixel-by-centre table of squared differences (taken the other way round), at (b, n, p). -/
theorem v25_apply (b : Fin 4) (n : Fin 76800) (p : Fin 257) :
    val_main_v25 (F := Ideal) x0 x1 x2 (ix3 b n p) = sq (tgtP x0 x1 x2 b n) (ctrP x0 x1 x2 b p) := by
  have e22 : idx_main_v20 (idx_main_v22 (ix3 b n p)) = ix2 b n := by
    funext a; match a with | ⟨0, _⟩ => rfl | ⟨1, _⟩ => rfl
  have e23 : idx_main_v21 (idx_main_v23 (ix3 b n p)) = ix2 b p := by
    funext a; match a with | ⟨0, _⟩ => rfl | ⟨1, _⟩ => rfl
  rw [val_main_v25_apply, val_main_v24_apply, val_main_v22_apply, val_main_v20_apply, e22, val_main_v23_apply,
    val_main_v21_apply, e23, v9_apply, v11_apply]
  rfl

/-- Its minimum over the centres, from +inf: each pixel's squared distance to its nearest centre (the squared
    difference is symmetric). -/
theorem v26_apply (b : Fin 4) (n : Fin 76800) :
    val_main_v26 (F := Ideal) x0 x1 x2 (ix2 b n)
      = ⨅ p : Fin 257, sq (ctrP x0 x1 x2 b p) (tgtP x0 x1 x2 b n) := by
  unfold val_main_v26
  rw [reduce_min_centres, val_main_cst_5_apply, Ideal.ofBits_def, ofBits_pos_inf, min_eq_right le_top]
  exact iInf_congr fun p => (v25_apply x0 x1 x2 b n p).trans (sq_comm _ _)

/-- Those distances summed over the 76800 pixels, from zero. -/
theorem v27_apply (b : Fin 4) :
    val_main_v27 (F := Ideal) x0 x1 x2 (ix1 b)
      = ∑ n : Fin 76800, ⨅ p : Fin 257, sq (ctrP x0 x1 x2 b p) (tgtP x0 x1 x2 b n) := by
  rw [val_main_v27_apply, val_main_cst_6_apply, Ideal.ofBits_def, Ideal.ofBits_zero_f32, zero_add]
  refine Finset.sum_congr rfl fun n _ => ?_
  have e : idx_main_v27 (ix1 b) n = ix2 b n := by
    funext a; match a with | ⟨0, _⟩ => rfl | ⟨1, _⟩ => rfl
  rw [e, v26_apply]

/-- One batch's two sums added. -/
theorem v28_apply (b : Fin 4) : val_main_v28 (F := Ideal) x0 x1 x2 (ix1 b) = perBatch x0 x1 x2 b := by
  rw [val_main_v28_apply, v19_apply, v27_apply]
  rfl

/-- The four batches' sums added, from zero. -/
theorem v29_apply (i : S_.Idx) :
    val_main_v29 (F := Ideal) x0 x1 x2 i = 0 + ∑ b : Fin 4, perBatch x0 x1 x2 b := by
  rw [val_main_v29_apply, val_main_cst_7_apply, Ideal.ofBits_def, Ideal.ofBits_zero_f32, sum_idx1]
  exact congrArg (0 + ·) (Finset.sum_congr rfl fun b _ => v28_apply x0 x1 x2 b)

/-- Divided by four: the loss. -/
theorem v30_eq : val_main_v30 (F := Ideal) x0 x1 x2 = fun _ => result x0 x1 x2 := by
  funext i
  show _ = result x0 x1 x2
  rw [val_main_v30_apply, v29_apply, val_main_cst_8_apply, Ideal.ofBits_def, Ideal.hostDivf_def]
  unfold result
  rfl

end Stages

/-! ## The run -/

/-- The run's result term is the loss of the three argument arrays. -/
theorem result_eq (m : (ℓ : Loc nD τ sig) → Buf (Elt Ideal) ℓ) (c : Dev nD) :
    Cert.ReferenceIdeal.ValueP.res_main_v30 (F := Ideal) m c
      = fun _ => Cert.Spec.result (m ((c.tc : Thread nD τ).loc main_arg0)) (m ((c.tc : Thread nD τ).loc main_arg1))
          (m ((c.tc : Thread nD τ).loc main_arg2)) :=
  (ReadP.val_main_v30_eq (F := Ideal) m c).trans (v30_eq _ _ _)

/-- Every weakly fair execution of the reference terminates with its result at the loss of the three argument
    arrays and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
        = (fun _ => Cert.Spec.result (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq m c), (h c).2⟩)
    (Cert.ReferenceIdeal.ValueP.run (F := Ideal) m ρ)

/-- The reference runs and leaves its arguments unchanged: its run with the result dropped. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.ValueP.run (F := Ideal) m ρ)

end Cert.ReferenceIdeal.RefValue

end
-- ==== Proof.lean ====
/-
  The certificate of a masked, two-sided nearest-squared-distance loss: a Pallas program of two kernel regions against
  its jnp reference, over the extended reals.

  The mathematics. With T the target flattened to [4, 76800], K the mask flattened likewise and C the [4, 256]
  centers: the padding value is pad = mx + (mx − mn) + 1, where mx and mn are the larger and the smaller of the
  maximum of the unmasked targets and the maximum of the centers; C′ is C with one more column holding pad, T′ is T
  with pad at the masked-off pixels; and the result is the mean over the four batches of
      ∑ₚ minₙ (C′(b,p) − T′(b,n))² + ∑ₙ minₚ (C′(b,p) − T′(b,n))².
  The reference computes exactly this (its second direction written (T′ − C′)², the same square on the extended reals).
  The kernel program computes pad in a first region (a two-step maximum of each array, lanes then sublanes), joins it to
  the centers on the host, and in a second region walks the 76800 pixels in 50 tiles of 1536: per tile it forms the
  [4, 257, 1536] block of squares once, folds its minimum over the tile's pixels into a running minimum per center
  (from +∞) and adds the sum over the tile's pixels of the minimum over the centers to a running sum (from 0); the last
  tile adds the two. A minimum over all pixels is the fold of the tiles' minima, and a sum over all pixels the sum of
  the tiles' sums: associativity and commutativity alone, so the claim needs no finiteness of the inputs (pad itself is
  +∞ when the mask is everywhere off; both programs then compute with the same +∞).

  The three frames: each kernel program's run is a list of five segments — host operations, region, host operations,
  region, host operations — over named buffer contents at the six boundaries; the two regions' proof data, body
  obligations and the run over the segments are in the modules imported below (once at any float instance for the
  idealized program, and the same text for the word-level program); the reference's frame is its run with the result
  dropped. The idealization rewrote nothing, so the kernel's idealization is its own text.
-/
import proofs.«149737_j80418967650489_1_alg».proof.Defs
import proofs.«149737_j80418967650489_1_alg».proof.Proof.Gen.Kernel
import proofs.«149737_j80418967650489_1_alg».proof.Proof.Gen.KernelIdeal
import proofs.«149737_j80418967650489_1_alg».proof.Proof.Gen.ReferenceIdeal
import proofs.«149737_j80418967650489_1_alg».proof.Proof.Gen.Pre_finite_inputs
import proofs.«149737_j80418967650489_1_alg».proof.Proof.KBFrame
import proofs.«149737_j80418967650489_1_alg».proof.Proof.KIFinal
import proofs.«149737_j80418967650489_1_alg».proof.Proof.RefValue

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := Cert.ReferenceIdeal.RefValue.frame_ri

/-- The idealization pass rewrote no operation: nothing to state. -/
theorem preserves : Cert.preserves_Kernel_KernelIdeal := trivial

/-- Both idealized programs, run from memories agreeing on the three arguments, end with the one specified value of
    those arguments as their result. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
